-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S64 .f32) (main_arg6 : FVec F S64x128 .f32) (main_arg7 : FVec F S128 .f32) (main_arg8 : FVec F S128x128 .f32) (main_arg9 : FVec F S128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S128x128 .f32) (main_arg3 : FVec F S128 .f32) (main_arg4 : FVec F S128x64 .f32) (main_arg5 : FVec F S64 .f32) (main_arg6 : FVec F S64x128 .f32) (main_arg7 : FVec F S128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩
abbrev S50000x64 : Shape := ⟨2, ![50000, 64]⟩
abbrev S5000x64 : Shape := ⟨2, ![5000, 64]⟩
abbrev S650000x64 : Shape := ⟨2, ![650000, 64]⟩
abbrev S1x64 : Shape := ⟨2, ![1, 64]⟩

abbrev nBuf : Space → Nat
  | .hbm => 91
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S50000, .i32⟩
  | .hbm, ⟨11, _⟩ => ⟨S1x600000, .i32⟩
  | .hbm, ⟨12, _⟩ => ⟨S600000, .i32⟩
  | .hbm, ⟨13, _⟩ => ⟨S650000, .i32⟩
  | .hbm, ⟨14, _⟩ => ⟨S1x600000, .i32⟩
  | .hbm, ⟨15, _⟩ => ⟨S600000, .i32⟩
  | .hbm, ⟨16, _⟩ => ⟨S650000, .i32⟩
  | .hbm, ⟨17, _⟩ => ⟨S_, .f32⟩
  | .hbm, ⟨18, _⟩ => ⟨S650000, .f32⟩
  | .hbm, ⟨19, _⟩ => ⟨S_, .f32⟩
  | .hbm, ⟨20, _⟩ => ⟨S50000, .f32⟩
  | .hbm, ⟨21, _⟩ => ⟨S650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S650000, .i32⟩
  | .hbm, ⟨33, _⟩ => ⟨S650000, .i1⟩
  | .hbm, ⟨34, _⟩ => ⟨S_, .i32⟩
  | .hbm, ⟨35, _⟩ => ⟨S650000, .i32⟩
  | .hbm, ⟨36, _⟩ => ⟨S650000, .i32⟩
  | .hbm, ⟨37, _⟩ => ⟨S650000, .i32⟩
  | .hbm, ⟨38, _⟩ => ⟨S650000x1, .i32⟩
  | .hbm, ⟨39, _⟩ => ⟨S650000, .f32⟩
  | .hbm, ⟨40, _⟩ => ⟨S_, .i32⟩
  | .hbm, ⟨41, _⟩ => ⟨S650000, .i32⟩
  | .hbm, ⟨42, _⟩ => ⟨S650000, .i1⟩
  | .hbm, ⟨43, _⟩ => ⟨S_, .i32⟩
  | .hbm, ⟨44, _⟩ => ⟨S650000, .i32⟩
  | .hbm, ⟨45, _⟩ => ⟨S650000, .i32⟩
  | .hbm, ⟨46, _⟩ => ⟨S650000, .i32⟩
  | .hbm, ⟨47, _⟩ => ⟨S650000x1, .i32⟩
  | .hbm, ⟨48, _⟩ => ⟨S650000, .f32⟩
  | .hbm, ⟨49, _⟩ => ⟨S650000, .f32⟩
  | .hbm, ⟨50, _⟩ => ⟨S50000x128, .bf16⟩
  | .hbm, ⟨51, _⟩ => ⟨S_, .i32⟩
  | .hbm, ⟨52, _⟩ => ⟨S650000, .i32⟩
  | .hbm, ⟨53, _⟩ => ⟨S650000, .i1⟩
  | .hbm, ⟨54, _⟩ => ⟨S_, .i32⟩
  | .hbm, ⟨55, _⟩ => ⟨S650000, .i32⟩
  | .hbm, ⟨56, _⟩ => ⟨S650000, .i32⟩
  | .hbm, ⟨57, _⟩ => ⟨S650000, .i32⟩
  | .hbm, ⟨58, _⟩ => ⟨S650000x1, .i32⟩
  | .hbm, ⟨59, _⟩ => ⟨S650000x128, .bf16⟩
  | .hbm, ⟨60, _⟩ => ⟨S650000x128, .f32⟩
  | .hbm, ⟨61, _⟩ => ⟨S650000x1, .f32⟩
  | .hbm, ⟨62, _⟩ => ⟨S650000x128, .f32⟩
  | .hbm, ⟨63, _⟩ => ⟨S650000x128, .f32⟩
  | .hbm, ⟨64, _⟩ => ⟨S_, .f32⟩
  | .hbm, ⟨65, _⟩ => ⟨S50000x128, .f32⟩
  | .hbm, ⟨66, _⟩ => ⟨S650000x1, .i32⟩
  | .hbm, ⟨67, _⟩ => ⟨S50000x128, .f32⟩
  | .hbm, ⟨68, _⟩ => ⟨S1x128, .f32⟩
  | .hbm, ⟨69, _⟩ => ⟨S50000x64, .bf16⟩
  | .hbm, ⟨70, _⟩ => ⟨S_, .i32⟩
  | .hbm, ⟨71, _⟩ => ⟨S650000, .i32⟩
  | .hbm, ⟨72, _⟩ => ⟨S650000, .i1⟩
  | .hbm, ⟨73, _⟩ => ⟨S_, .i32⟩
  | .hbm, ⟨74, _⟩ => ⟨S650000, .i32⟩
  | .hbm, ⟨75, _⟩ => ⟨S650000, .i32⟩
  | .hbm, ⟨76, _⟩ => ⟨S650000, .i32⟩
  | .hbm, ⟨77, _⟩ => ⟨S650000x1, .i32⟩
  | .hbm, ⟨78, _⟩ => ⟨S650000x64, .bf16⟩
  | .hbm, ⟨79, _⟩ => ⟨S650000x64, .f32⟩
  | .hbm, ⟨80, _⟩ => ⟨S650000x1, .f32⟩
  | .hbm, ⟨81, _⟩ => ⟨S650000x64, .f32⟩
  | .hbm, ⟨82, _⟩ => ⟨S650000x64, .f32⟩
  | .hbm, ⟨83, _⟩ => ⟨S_, .f32⟩
  | .hbm, ⟨84, _⟩ => ⟨S50000x64, .f32⟩
  | .hbm, ⟨85, _⟩ => ⟨S650000x1, .i32⟩
  | .hbm, ⟨86, _⟩ => ⟨S50000x64, .f32⟩
  | .hbm, ⟨87, _⟩ => ⟨S1x64, .f32⟩
  | .hbm, ⟨88, _⟩ => ⟨S1x128, .f32⟩
  | .hbm, ⟨89, _⟩ => ⟨S1x128, .f32⟩
  | .hbm, ⟨90, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .bf16⟩
  | .local _ .vmem, ⟨10, _⟩ => ⟨S5000x64, .bf16⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S64x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x64_S5000x64_1_0_0_1_n_n_wf : DotDims.WF S5000x128 S128x64 S5000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .bf16 = 32 ∨ (Rect.block (s := S50000x64) S5000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v64) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x64 : Shape := ⟨2, ![50000, 64]⟩
abbrev S650000x64 : Shape := ⟨2, ![650000, 64]⟩
abbrev S1x64 : Shape := ⟨2, ![1, 64]⟩

abbrev nBuf : Space → Nat
  | .hbm => 147
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x64, .f32⟩
  | 5 => ⟨S64, .f32⟩
  | 6 => ⟨S64x128, .f32⟩
  | 7 => ⟨S128, .f32⟩
  | 8 => ⟨S128x128, .f32⟩
  | 9 => ⟨S128, .f32⟩
  | 10 => ⟨S50000x128, .f32⟩
  | 11 => ⟨S50000, .i32⟩
  | 12 => ⟨S1x600000, .i32⟩
  | 13 => ⟨S600000, .i32⟩
  | 14 => ⟨S650000, .i32⟩
  | 15 => ⟨S1x600000, .i32⟩
  | 16 => ⟨S600000, .i32⟩
  | 17 => ⟨S650000, .i32⟩
  | 18 => ⟨S_, .f32⟩
  | 19 => ⟨S650000, .f32⟩
  | 20 => ⟨S_, .f32⟩
  | 21 => ⟨S50000, .f32⟩
  | 22 => ⟨S650000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S650000, .i32⟩
  | 34 => ⟨S650000, .i1⟩
  | 35 => ⟨S_, .i32⟩
  | 36 => ⟨S650000, .i32⟩
  | 37 => ⟨S650000, .i32⟩
  | 38 => ⟨S650000, .i32⟩
  | 39 => ⟨S650000x1, .i32⟩
  | 40 => ⟨S650000, .f32⟩
  | 41 => ⟨S_, .i32⟩
  | 42 => ⟨S650000, .i32⟩
  | 43 => ⟨S650000, .i1⟩
  | 44 => ⟨S_, .i32⟩
  | 45 => ⟨S650000, .i32⟩
  | 46 => ⟨S650000, .i32⟩
  | 47 => ⟨S650000, .i32⟩
  | 48 => ⟨S650000x1, .i32⟩
  | 49 => ⟨S650000, .f32⟩
  | 50 => ⟨S650000, .f32⟩
  | 51 => ⟨S_, .i32⟩
  | 52 => ⟨S650000, .i32⟩
  | 53 => ⟨S650000, .i1⟩
  | 54 => ⟨S_, .i32⟩
  | 55 => ⟨S650000, .i32⟩
  | 56 => ⟨S650000, .i32⟩
  | 57 => ⟨S650000, .i32⟩
  | 58 => ⟨S650000x1, .i32⟩
  | 59 => ⟨S650000x128, .f32⟩
  | 60 => ⟨S650000x1, .f32⟩
  | 61 => ⟨S650000x128, .f32⟩
  | 62 => ⟨S650000x128, .f32⟩
  | 63 => ⟨S_, .f32⟩
  | 64 => ⟨S50000x128, .f32⟩
  | 65 => ⟨S650000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000x64, .f32⟩
  | 74 => ⟨S50000, .i32⟩
  | 75 => ⟨S1x600000, .i32⟩
  | 76 => ⟨S600000, .i32⟩
  | 77 => ⟨S650000, .i32⟩
  | 78 => ⟨S1x600000, .i32⟩
  | 79 => ⟨S600000, .i32⟩
  | 80 => ⟨S650000, .i32⟩
  | 81 => ⟨S_, .f32⟩
  | 82 => ⟨S650000, .f32⟩
  | 83 => ⟨S_, .f32⟩
  | 84 => ⟨S50000, .f32⟩
  | 85 => ⟨S650000x1, .i32⟩
  | 86 => ⟨S50000, .f32⟩
  | 87 => ⟨S_, .f32⟩
  | 88 => ⟨S50000, .f32⟩
  | 89 => ⟨S50000, .i1⟩
  | 90 => ⟨S50000, .f32⟩
  | 91 => ⟨S_, .f32⟩
  | 92 => ⟨S_, .f32⟩
  | 93 => ⟨S50000, .f32⟩
  | 94 => ⟨S50000, .f32⟩
  | 95 => ⟨S_, .i32⟩
  | 96 => ⟨S650000, .i32⟩
  | 97 => ⟨S650000, .i1⟩
  | 98 => ⟨S_, .i32⟩
  | 99 => ⟨S650000, .i32⟩
  | 100 => ⟨S650000, .i32⟩
  | 101 => ⟨S650000, .i32⟩
  | 102 => ⟨S650000x1, .i32⟩
  | 103 => ⟨S650000, .f32⟩
  | 104 => ⟨S_, .i32⟩
  | 105 => ⟨S650000, .i32⟩
  | 106 => ⟨S650000, .i1⟩
  | 107 => ⟨S_, .i32⟩
  | 108 => ⟨S650000, .i32⟩
  | 109 => ⟨S650000, .i32⟩
  | 110 => ⟨S650000, .i32⟩
  | 111 => ⟨S650000x1, .i32⟩
  | 112 => ⟨S650000, .f32⟩
  | 113 => ⟨S650000, .f32⟩
  | 114 => ⟨S_, .i32⟩
  | 115 => ⟨S650000, .i32⟩
  | 116 => ⟨S650000, .i1⟩
  | 117 => ⟨S_, .i32⟩
  | 118 => ⟨S650000, .i32⟩
  | 119 => ⟨S650000, .i32⟩
  | 120 => ⟨S650000, .i32⟩
  | 121 => ⟨S650000x1, .i32⟩
  | 122 => ⟨S650000x64, .f32⟩
  | 123 => ⟨S650000x1, .f32⟩
  | 124 => ⟨S650000x64, .f32⟩
  | 125 => ⟨S650000x64, .f32⟩
  | 126 => ⟨S_, .f32⟩
  | 127 => ⟨S50000x64, .f32⟩
  | _ => ⟨S50000x128, .f32⟩

abbrev hbmTy0_1 (i : Nat) : BufTy := match i % 128 with
  | 0 => ⟨S650000x1, .i32⟩
  | 1 => ⟨S50000x64, .f32⟩
  | 2 => ⟨S1x64, .f32⟩
  | 3 => ⟨S50000x64, .f32⟩
  | 4 => ⟨S50000x64, .f32⟩
  | 5 => ⟨S_, .f32⟩
  | 6 => ⟨S50000x64, .f32⟩
  | 7 => ⟨S50000x64, .f32⟩
  | 8 => ⟨S50000x128, .f32⟩
  | 9 => ⟨S1x128, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_cst_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_v63 : Ref sig .tc := ⟨.hbm, 94, rfl⟩
abbrev main_c_13 : Ref sig .tc := ⟨.hbm, 95, rfl⟩
abbrev main_v64 : Ref sig .tc := ⟨.hbm, 96, rfl⟩
abbrev main_v65 : Ref sig .tc := ⟨.hbm, 97, rfl⟩
abbrev main_c_14 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_15 : Ref sig .tc := ⟨.hbm, 104, rfl⟩
abbrev main_v71 : Ref sig .tc := ⟨.hbm, 105, rfl⟩
abbrev main_v72 : Ref sig .tc := ⟨.hbm, 106, rfl⟩
abbrev main_c_16 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_17 : Ref sig .tc := ⟨.hbm, 114, rfl⟩
abbrev main_v79 : Ref sig .tc := ⟨.hbm, 115, rfl⟩
abbrev main_v80 : Ref sig .tc := ⟨.hbm, 116, rfl⟩
abbrev main_c_18 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_19 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_call3_cst : Ref sig .tc := ⟨.hbm, 133, rfl⟩
abbrev main_call3_v0 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_call4_cst : Ref sig .tc := ⟨.hbm, 140, rfl⟩
abbrev main_call4_v0 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x64_S50000x64_1_0_0_1_n_n_wf : DotDims.WF S50000x128 S128x64 S50000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  dot_S50000x64_S64x128_S50000x128_1_0_0_1_n_n_wf : DotDims.WF S50000x64 S64x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf

class Facts : Prop extends Facts₀ where

variable [Facts]
-- ==== Proof.KernelRun.lean ====
/-
  The idealized kernel's run with its result named. The program is three kernel regions among stretches of host
  operations; from any launch memory every weakly fair execution terminates without a fault, and the final memory holds,
  at every buffer that is not a kernel's scratch, the contents of the last segment boundary. Read at the result buffer this
  gives the result array as the last region's written-back output; read at an argument it gives the launch contents.
-/
import proofs.«141084_j23390391894414_1_alg».proof.Proof.Gen.KernelIdeal.Frame

set_option maxRecDepth 16384

noncomputable section

namespace Cert.KernelIdeal.LastRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and every argument array ends as launched. -/
theorem run_last : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.LastRun

end
-- ==== Proof.KerChain.lean ====
/-
  The graph side of the kernel's program, as functions of the edge list: the sources and targets of the messages
  (the listed edges followed by one self-loop per node), the symmetric normalisation weights
  deg(source)^(-1/2) · deg(target)^(-1/2), and the aggregation of a node table along the edges (gather the source's row,
  scale it by the message's weight, add it into the target's row), written with the program's own host operations. Here the
  gathered table is stored in the narrow float format and widened after the gather.
-/
import proofs.«141084_j23390391894414_1_alg».proof.Proof.Gen.KernelIdeal

noncomputable section

namespace Cert.KernelIdeal.Chain

open Cert.KernelIdeal Idealize.ShloMosaic Idealize.ShloMosaic.TcCoe
open Cert.KernelIdeal.Facts₀ Cert.KernelIdeal.Facts

variable {F : FTy → Type} [FloatOps F]

/-- The source of every message: the first row of the edge list, then every node once (its self-loop). -/
def rowOf (e : (⟨S2x600000, .i32⟩ : BufTy).Contents (Elt F)) : (⟨S650000, .i32⟩ : BufTy).Contents (Elt F) :=
  (concatenate S650000 0 [⟨S600000, (shapeCast _ (extractStridedSlice S1x600000 ![0, 0] e slices_S2x600000_S1x600000_0_0) shapeCasts_S1x600000_S600000)⟩, ⟨S50000, (iotaInDim S50000 32 0)⟩] concatenates_S600000_S50000_S650000_d0)

/-- The target of every message: the second row of the edge list, then every node once. -/
def colOf (e : (⟨S2x600000, .i32⟩ : BufTy).Contents (Elt F)) : (⟨S650000, .i32⟩ : BufTy).Contents (Elt F) :=
  (concatenate S650000 0 [⟨S600000, (shapeCast _ (extractStridedSlice S1x600000 ![1, 0] e slices_S2x600000_S1x600000_1_0) shapeCasts_S1x600000_S600000)⟩, ⟨S50000, (iotaInDim S50000 32 0)⟩] concatenates_S600000_S50000_S650000_d0)

/-- The symmetric normalisation of every message: with deg the number of messages arriving at a node (counted by adding
    one per message at its target) and dis = deg^(-1/2) where deg > 0, else 0, the weight of a message is
    dis(source) · dis(target); a negative index counts from the end. -/
def normOf (row col : (⟨S650000, .i32⟩ : BufTy).Contents (Elt F)) : (⟨S650000, .f32⟩ : BufTy).Contents (Elt F) :=
  (mulf (Host.gather gather_S50000_S650000x1_S650000_n_0_n_n_0_1_1 (select (cmpf .ogt (Host.scatterAdd scatter_S50000_S650000x1_S650000_n_0_0_1 (broadcastInDim S50000 ![] bcast_S_S50000 (constant (F := F) S_ .f32 0x00000000#32)) (broadcastInDim S650000x1 ![0] bcast_S650000_S650000x1_0 col) (broadcastInDim S650000 ![] bcast_S_S650000 (constant (F := F) S_ .f32 0x3F800000#32))) (broadcastInDim S50000 ![] bcast_S_S50000 (constant (F := F) S_ .f32 0x00000000#32))) (Host.rsqrt (Host.scatterAdd scatter_S50000_S650000x1_S650000_n_0_0_1 (broadcastInDim S50000 ![] bcast_S_S50000 (constant (F := F) S_ .f32 0x00000000#32)) (broadcastInDim S650000x1 ![0] bcast_S650000_S650000x1_0 col) (broadcastInDim S650000 ![] bcast_S_S650000 (constant (F := F) S_ .f32 0x3F800000#32)))) (broadcastInDim S50000 ![] bcast_S_S50000 (id (constant (F := F) S_ .f32 0x00000000#32)))) (broadcastInDim S650000x1 ![0] bcast_S650000_S650000x1_0 (select (cmpi .slt row (broadcastInDim S650000 ![] bcast_S_S650000 (constantI S_ 32 0#32))) (addi row (broadcastInDim S650000 ![] bcast_S_S650000 (constantI S_ 32 50000#32))) row))) (Host.gather gather_S50000_S650000x1_S650000_n_0_n_n_0_1_1 (select (cmpf .ogt (Host.scatterAdd scatter_S50000_S650000x1_S650000_n_0_0_1 (broadcastInDim S50000 ![] bcast_S_S50000 (constant (F := F) S_ .f32 0x00000000#32)) (broadcastInDim S650000x1 ![0] bcast_S650000_S650000x1_0 col) (broadcastInDim S650000 ![] bcast_S_S650000 (constant (F := F) S_ .f32 0x3F800000#32))) (broadcastInDim S50000 ![] bcast_S_S50000 (constant (F := F) S_ .f32 0x00000000#32))) (Host.rsqrt (Host.scatterAdd scatter_S50000_S650000x1_S650000_n_0_0_1 (broadcastInDim S50000 ![] bcast_S_S50000 (constant (F := F) S_ .f32 0x00000000#32)) (broadcastInDim S650000x1 ![0] bcast_S650000_S650000x1_0 col) (broadcastInDim S650000 ![] bcast_S_S650000 (constant (F := F) S_ .f32 0x3F800000#32)))) (broadcastInDim S50000 ![] bcast_S_S50000 (id (constant (F := F) S_ .f32 0x00000000#32)))) (broadcastInDim S650000x1 ![0] bcast_S650000_S650000x1_0 (select (cmpi .slt col (broadcastInDim S650000 ![] bcast_S_S650000 (constantI S_ 32 0#32))) (addi col (broadcastInDim S650000 ![] bcast_S_S650000 (constantI S_ 32 50000#32))) col))))

/-- Aggregate a [50000, 128] node table along the edges: row t of the result is Σ over messages into t of
    weight · (the source's row). -/
def agg128 (row col : (⟨S650000, .i32⟩ : BufTy).Contents (Elt F)) (norm : (⟨S650000, .f32⟩ : BufTy).Contents (Elt F)) (xw : (⟨S50000x128, .bf16⟩ : BufTy).Contents (Elt F)) : (⟨S50000x128, .f32⟩ : BufTy).Contents (Elt F) :=
  (Host.scatterAdd scatter_S50000x128_S650000x1_S650000x128_1_0_0_1 (broadcastInDim S50000x128 ![] bcast_S_S50000x128 (constant (F := F) S_ .f32 0x00000000#32)) (broadcastInDim S650000x1 ![0] bcast_S650000_S650000x1_0 col) (mulf (extf .f32 (Host.gather gather_S50000x128_S650000x1_S650000x128_1_0_n_n_0_1_1128 xw (broadcastInDim S650000x1 ![0] bcast_S650000_S650000x1_0 (select (cmpi .slt row (broadcastInDim S650000 ![] bcast_S_S650000 (constantI S_ 32 0#32))) (addi row (broadcastInDim S650000 ![] bcast_S_S650000 (constantI S_ 32 50000#32))) row))) bitsLt_bf16_f32) (broadcastInDim S650000x128 ![0, 1] bcast_S650000x1_S650000x128_0_1 (broadcastInDim S650000x1 ![0] bcast_S650000_S650000x1_0 norm))))

/-- The same aggregation of a [50000, 64] node table. -/
def agg64 (row col : (⟨S650000, .i32⟩ : BufTy).Contents (Elt F)) (norm : (⟨S650000, .f32⟩ : BufTy).Contents (Elt F)) (xw : (⟨S50000x64, .bf16⟩ : BufTy).Contents (Elt F)) : (⟨S50000x64, .f32⟩ : BufTy).Contents (Elt F) :=
  (Host.scatterAdd scatter_S50000x64_S650000x1_S650000x64_1_0_0_1 (broadcastInDim S50000x64 ![] bcast_S_S50000x64 (constant (F := F) S_ .f32 0x00000000#32)) (broadcastInDim S650000x1 ![0] bcast_S650000_S650000x1_0 col) (mulf (extf .f32 (Host.gather gather_S50000x64_S650000x1_S650000x64_1_0_n_n_0_1_164 xw (broadcastInDim S650000x1 ![0] bcast_S650000_S650000x1_0 (select (cmpi .slt row (broadcastInDim S650000 ![] bcast_S_S650000 (constantI S_ 32 0#32))) (addi row (broadcastInDim S650000 ![] bcast_S_S650000 (constantI S_ 32 50000#32))) row))) bitsLt_bf16_f32) (broadcastInDim S650000x64 ![0, 1] bcast_S650000x1_S650000x64_0_1 (broadcastInDim S650000x1 ![0] bcast_S650000_S650000x1_0 norm))))

end Cert.KernelIdeal.Chain

end
-- ==== Proof.LibFoldAppend.lean ====
/-
  A fold of host operations over a concatenation of two lists is the fold over the first list followed by the fold
  over the second: the contents after a line are the contents after its stretches, composed.
-/
import Idealize.ShloMosaic.Lib.StableHlo.Run

namespace LibFoldAppend

open Idealize.ShloMosaic Idealize.ShloMosaic.StableHlo

variable {nD : Nat} {τ : Topo} {sig : RefSig} {Val : EltTy → Type}

/-- Folding over `l₁ ++ l₂` from `V` is folding over `l₂` from the fold over `l₁`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end LibFoldAppend
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.LibPlainDot.lean ====
/-
  A plain matrix product computed by the host, read at an entry. For an M×K left operand and a K×N right operand
  contracted over the one shared axis (left axis 1 against right axis 0, no batch axis), the exact product has, at row r
  and column c, the value  Σ_k lhs(r, k) · rhs(k, c) — the same sum a matrix unit accumulating into zero leaves there,
  so the two agree entry by entry whatever the tiling of the rows.
-/
import proofs.«141084_j23390391894414_1_alg».proof.Proof.LibPlainMatmul

noncomputable section

namespace PlainDot

open Idealize.ShloMosaic Idealize.ShloMosaic.ValueIdx

variable {M K N : ℕ}

/-- The host's product at (r, c) is Σ_k lhs(r, k) · rhs(k, c). -/
theorem apply {φ₁ φ₂ : FTy} (prec : Option ContractPrecision) (lhs : FVec Ideal ⟨2, ![M, K]⟩ φ₁)
    (rhs : FVec Ideal ⟨2, ![K, N]⟩ φ₂) (r : Fin M) (c : Fin N) :
    Host.dotGeneral (F := Ideal) (DotDims.plain M K N) prec lhs rhs (ix2 r c)
      = ∑ k : Fin K, lhs (ix2 r k) * rhs (ix2 k c) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact PlainMatmul.lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact PlainMatmul.rhs_col _ _)
  rw [el, er]

end PlainDot

end
-- ==== Proof.LibExactProduct.lean ====
/-
  The exact matrix product as one function of its two operands, entry by entry:
  (x · w)(r, c) = Σ_k x(r, k) · w(k, c) on the extended reals, for an M × K and a K × N matrix.
  The host's contraction of axis 1 against axis 0 (no batch axis) is this function, and so is a product computed row
  block by row block, whatever the tiling of the rows. Also the product plus a bias row added to every row, and the
  host's spelling of that sum: a bias vector laid out as one row, copied into every row, and added.
-/
import proofs.«141084_j23390391894414_1_alg».proof.Proof.LibPlainDot
import Idealize.ShloMosaic.Lib.ValueLayout
import Idealize.ShloMosaic.Lib.Pipeline.Value

noncomputable section

namespace ExactProduct

open Idealize.ShloMosaic Idealize.ShloMosaic.ValueIdx

/-- The exact product of an M × K matrix and a K × N matrix. -/
def mm {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem mm_apply {M K N : ℕ} (x : (⟨2, ![M, K]⟩ : Shape).Idx → EReal) (w : (⟨2, ![K, N]⟩ : Shape).Idx → EReal)
    (r : Fin M) (c : Fin N) : mm x w (ix2 r c) = ∑ k : Fin K, x (ix2 r k) * w (ix2 k c) := rfl

/-- The host's contraction of axis 1 against axis 0, no batch axis, is the exact product. -/
theorem hostDot_eq_mm {M K N : ℕ} (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32) :
    Host.dotGeneral (F := Ideal) d prec x w = mm x w := by
  subst hd
  funext i
  obtain ⟨r, c, rfl⟩ : ∃ (r : Fin M) (c : Fin N), i = ix2 r c := ⟨i 0, i 1, eq_ix2 i⟩
  exact PlainDot.apply prec x w r c

/-- The exact product plus a bias row added to every row. -/
def proj {M K N : ℕ} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => mm x w i + b (ix2 (0 : Fin 1) (i 1))

/-- A bias vector laid out as one row and copied into every row reads, at (r, c), the vector at c. -/
theorem rowOfVector_apply {M N : ℕ} (bp : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 bp) (ix2 r c) = bp (ix1 c) := by
  have hc : c.val < N := c.isLt
  refine (broadcastInDim_apply ![0, 1] h2 _ (ix2 r c) (ix2 (0 : Fin 1) c) (fun a => ?_)).trans
    (broadcastInDim_apply ![1] h1 bp (ix2 (0 : Fin 1) c) (ix1 c) (fun a => ?_))
  · match a with
    | ⟨0, _⟩ => rfl
    | ⟨1, _⟩ =>
      show c.val = if N = 1 then 0 else c.val
      split
      · omega
      · rfl
  · match a with
    | ⟨0, _⟩ =>
      show c.val = if N = 1 then 0 else c.val
      split
      · omega
      · rfl

/-- The host's product plus the bias vector copied into every row is the projection with the vector cast to a row. -/
theorem addRow_eq_proj {M K N : ℕ} (x : (⟨2, ![M, K]⟩ : Shape).Idx → EReal) (w : (⟨2, ![K, N]⟩ : Shape).Idx → EReal)
    (bp : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (F := Ideal) (φ := .f32) (mm x w) (broadcastInDim ⟨2, ![M, N]⟩ ![0, 1] h2 (broadcastInDim ⟨2, ![1, N]⟩ ![1] h1 bp))
      = proj x w (shapeCast ⟨2, ![1, N]⟩ bp hc) := by
  funext i
  obtain ⟨r, c, rfl⟩ : ∃ (r : Fin M) (c : Fin N), i = ix2 r c := ⟨i 0, i 1, eq_ix2 i⟩
  show mm x w (ix2 r c) + _ = mm x w (ix2 r c) + shapeCast ⟨2, ![1, N]⟩ bp hc (ix2 (0 : Fin 1) c)
  exact congrArg (mm x w (ix2 r c) + ·) ((rowOfVector_apply bp h1 h2 r c).trans (shapeCast_a_1a_apply bp hc (0 : Fin 1) c).symm)

end ExactProduct

end
-- ==== Proof.GcnSpec.lean ====
/-
  The dense stages of a two-layer graph convolution with a two-layer decoder, each as one whole-array function on the
  extended reals, entry by entry.

  A row-biased rectifier: (a, b) ↦ max(a(r, k) + b(0, k), 0), with the bias kept as one row [1, K].
  A projection after it: layer a b w = (max(a + b, 0)) · w, the exact matrix product Σ_k max(a(r,k) + b(0,k), 0) · w(k, c).
  The decoder: decoder a b w₁ b₁ w₂ b₂ = (max((max(a + b, 0)) · w₁ + b₁, 0)) · w₂ + b₂.
  The zero of the rectifier is kept as the f32 word 0 read on the extended reals; both programs spell it with that word,
  so it is never evaluated.
-/
import proofs.«141084_j23390391894414_1_alg».proof.Proof.LibExactProduct

noncomputable section

namespace Cert.Gcn

open Idealize.ShloMosaic Idealize.ShloMosaic.ValueIdx

/-- The f32 word 0 on the extended reals: the floor of the rectifier. -/
def floor0 : EReal := Ideal.ofBits .f32 0x00000000#32

/-- max(a + bias row, 0), entry by entry: the bias is one row [1, K] added to every row of a. -/
def reluRow {M K : ℕ} (a : (⟨2, ![M, K]⟩ : Shape).Idx → EReal) (b : (⟨2, ![1, K]⟩ : Shape).Idx → EReal) :
    (⟨2, ![M, K]⟩ : Shape).Idx → EReal :=
  fun i => max (a i + b (ix2 (0 : Fin 1) (i 1))) floor0

theorem reluRow_apply {M K : ℕ} (a : (⟨2, ![M, K]⟩ : Shape).Idx → EReal) (b : (⟨2, ![1, K]⟩ : Shape).Idx → EReal)
    (r : Fin M) (k : Fin K) : reluRow a b (ix2 r k) = max (a (ix2 r k) + b (ix2 (0 : Fin 1) k)) floor0 := rfl

/-- One hidden layer's projection: (max(a + b, 0)) · w. -/
def layer {M K N : ℕ} (a : (⟨2, ![M, K]⟩ : Shape).Idx → EReal) (b : (⟨2, ![1, K]⟩ : Shape).Idx → EReal)
    (w : (⟨2, ![K, N]⟩ : Shape).Idx → EReal) : (⟨2, ![M, N]⟩ : Shape).Idx → EReal :=
  ExactProduct.mm (reluRow a b) w

theorem layer_apply {M K N : ℕ} (a : (⟨2, ![M, K]⟩ : Shape).Idx → EReal) (b : (⟨2, ![1, K]⟩ : Shape).Idx → EReal)
    (w : (⟨2, ![K, N]⟩ : Shape).Idx → EReal) (r : Fin M) (c : Fin N) :
    layer a b w (ix2 r c) = ∑ k : Fin K, max (a (ix2 r k) + b (ix2 (0 : Fin 1) k)) floor0 * w (ix2 k c) := rfl

/-- The decoder: (max((max(a + b, 0)) · w₁ + b₁, 0)) · w₂ + b₂. -/
def decoder {M K H N : ℕ} (a : (⟨2, ![M, K]⟩ : Shape).Idx → EReal) (b : (⟨2, ![1, K]⟩ : Shape).Idx → EReal)
    (w₁ : (⟨2, ![K, H]⟩ : Shape).Idx → EReal) (b₁ : (⟨2, ![1, H]⟩ : Shape).Idx → EReal)
    (w₂ : (⟨2, ![H, N]⟩ : Shape).Idx → EReal) (b₂ : (⟨2, ![1, N]⟩ : Shape).Idx → EReal) :
    (⟨2, ![M, N]⟩ : Shape).Idx → EReal :=
  ExactProduct.proj (reluRow (layer a b w₁) b₁) w₂ b₂

theorem decoder_apply {M K H N : ℕ} (a : (⟨2, ![M, K]⟩ : Shape).Idx → EReal) (b : (⟨2, ![1, K]⟩ : Shape).Idx → EReal)
    (w₁ : (⟨2, ![K, H]⟩ : Shape).Idx → EReal) (b₁ : (⟨2, ![1, H]⟩ : Shape).Idx → EReal)
    (w₂ : (⟨2, ![H, N]⟩ : Shape).Idx → EReal) (b₂ : (⟨2, ![1, N]⟩ : Shape).Idx → EReal) (r : Fin M) (c : Fin N) :
    decoder a b w₁ b₁ w₂ b₂ (ix2 r c)
      = (∑ h : Fin H, max ((∑ k : Fin K, max (a (ix2 r k) + b (ix2 (0 : Fin 1) k)) floor0 * w₁ (ix2 k h))
            + b₁ (ix2 (0 : Fin 1) h)) floor0 * w₂ (ix2 h c)) + b₂ (ix2 (0 : Fin 1) c) := rfl

end Cert.Gcn

end
-- ==== Proof.LibDenseLayer.lean ====
/-
  A dense layer with a rectified-linear activation, read at an entry, at the exact (extended-real) values.

  For an M×K matrix X, a K×N matrix W and a bias kept as one row [1, N] that is copied into every row of the product,
  the entry (r, c) of  max(X·W + bias, z)  is  max(Σ_k X(r, k)·W(k, c) + bias(0, c), z).
  Beside it: a [1, 1] array copied out to [a, b] reads its one entry everywhere.
-/
import Idealize.ShloMosaic.Lib.ValueLayout
import Idealize.ShloMosaic.PureOps.Ideal.Laws
import proofs.«141084_j23390391894414_1_alg».proof.Proof.LibPlainMatmul

noncomputable section

namespace Cert.LibDenseLayer

open Idealize.ShloMosaic Idealize.ShloMosaic.ValueIdx

/-- A `[1, 1]` array broadcast to `[a, b]` reads, at `(p, q)`, the operand's one entry. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The entry (r, c) of max(X·W + bias row, z) is max(Σ_k X(r, k)·W(k, c) + bias(0, c), z). -/
theorem relu_dense_apply {M K N : ℕ} {φ₁ φ₂ : FTy} (X : FVec Ideal ⟨2, ![M, K]⟩ φ₁) (W : FVec Ideal ⟨2, ![K, N]⟩ φ₂)
    (bias : FVec Ideal ⟨2, ![1, N]⟩ .f32) (hb : (⟨2, ![1, N]⟩ : Shape).Broadcasts ⟨2, ![M, N]⟩) (z : EReal)
    (r : Fin M) (c : Fin N) :
    maximumf (addf (FloatOps.matmul (DotDims.plain M K N) none X W (constant (F := Ideal) ⟨2, ![M, N]⟩ .f32 0x00000000#32))
        (broadcastTo ⟨2, ![M, N]⟩ bias hb)) (broadcast ⟨2, ![M, N]⟩ z) (ix2 r c)
      = max ((∑ k : Fin K, X (ix2 r k) * W (ix2 k c)) + bias (ix2 (0 : Fin 1) c)) z := by
  rw [maximumf_apply, addf_apply, PlainMatmul.apply_zero, broadcastTo_1b_ab_apply]
  rfl

end Cert.LibDenseLayer

end
-- ==== Proof.Region0.lean ====
/-
  The first region's output array, after the region, as one function of the two arrays the region was entered with:
  the exact product x · W, entry by entry, (x · W)(r, c) = Σ_k x(r, k) · W(k, c) on the extended reals.
  Grid point t multiplies rows 5000 t … 5000 t + 4999 of x by the whole of W and writes the result back to the same
  rows of the output; the ten row blocks tile the 50000 rows, so the array ends holding the whole product.
-/
import proofs.«141084_j23390391894414_1_alg».proof.Proof.Gen.KernelIdeal.Frame
import proofs.«141084_j23390391894414_1_alg».proof.Proof.GcnSpec
import proofs.«141084_j23390391894414_1_alg».proof.Proof.LibDenseLayer
import Idealize.ShloMosaic.Lib.Pipeline.Value
import Idealize.ShloMosaic.Lib.ValueLayout

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's payload at an entry: row p of the left block against column q of the right block. -/
theorem pay_apply (x0 : FVec Ideal S5000x128 .f32) (x1 : FVec Ideal S128x128 .f32) (p : Fin 5000) (q : Fin 128) :
    Gen.k0_pay1 (F := Ideal) x0 x1 (ix2 p q) = ∑ k : Fin 128, x0 (ix2 p k) * x1 (ix2 k q) := by
  unfold Gen.k0_pay1
  exact PlainMatmul.apply_zero (M := 5000) (K := 128) (N := 128)
    (truncf .bf16 x0 bitsLt_bf16_f32) (truncf .bf16 x1 bitsLt_bf16_f32) p q

/-- The printed index maps over the grid: the left operand's block and the output's block are row block t, all
    columns; the right operand's block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 5000 t … 5000 t + 4999 of the left array. -/
theorem lhs_blk (c : Dev nD) (t : Fin cfg0.N) (p : Fin 5000) (k : Fin 128) (r : Fin 50000)
    (hr : r.val = 5000 * t.val + p.val) :
    (Gen.iblk0 V c 0 t : Vec Ideal S5000x128 .f32) (ix2 p k) = (V c main_arg0 : S50000x128.Idx → EReal) (ix2 r k) := by
  obtain ⟨e0, e1, -⟩ := idx_facts t
  unfold Gen.iblk0
  rw [View.read_apply]
  show V c main_arg0 _ = V c main_arg0 _
  refine congrArg (V c main_arg0) (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The right operand's block at every point is the whole right array. -/
theorem rhs_blk (c : Dev nD) (t : Fin cfg0.N) (k : Fin 128) (q : Fin 128) :
    (Gen.iblk0 V c 1 t : Vec Ideal S128x128 .f32) (ix2 k q) = (V c main_arg2 : S128x128.Idx → EReal) (ix2 k q) := by
  obtain ⟨-, -, e0, e1, -⟩ := idx_facts t
  unfold Gen.iblk0
  rw [View.read_apply]
  show V c main_arg2 _ = V c main_arg2 _
  refine congrArg (V c main_arg2) (funext fun a => Fin.ext ?_)
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- What point t writes back is block t of the exact product of the two arrays the region was entered with. -/
theorem flushed_eq (c : Dev nD) (t : Fin cfg0.N) :
    (Gen.dat0 V c).flushed 2 t
      = ((cfg0.win 2).blk t).view.read (Elt Ideal)
          (ExactProduct.mm (M := 50000) (K := 128) (N := 128) (V c main_arg0) (V c main_arg2)) := by
  show (cfg0.win 2).cut (grid0.coords t) ((Gen.dat0 V c).after 2 t) = _
  rw [Gen.after0_2]
  unfold Gen.out0_2
  rw [View.canon_unit_zero hz]
  simp only [View.ld_unit_zero (S := S5000x128) hz, View.ld_unit_zero (S := S128x128) hz]
  obtain ⟨-, -, -, -, e0, e1⟩ := idx_facts t
  have hN : cfg0.N = 10 := Gen.N_0
  have ht : t.val < 10 := hN ▸ t.isLt
  funext j
  obtain ⟨p, q, rfl⟩ : ∃ (p : Fin 5000) (q : Fin 128), j = ix2 p q := ⟨j 0, j 1, eq_ix2 j⟩
  have hp : p.val < 5000 := p.isLt
  have he : ((cfg0.win 2).blk t).view.emb (ix2 p q)
      = (ix2 (⟨5000 * t.val + p.val, by omega⟩ : Fin 50000) q : S50000x128.Idx) := by
    funext a; apply Fin.ext
    match a with
    | ⟨0, _⟩ => show win0_2.index t (0 : Fin 2) * 5000 + 1 * p.val = 5000 * t.val + p.val; rw [e0]; omega
    | ⟨1, _⟩ => show win0_2.index t (1 : Fin 2) * 128 + 1 * q.val = q.val; rw [e1]; omega
  show Gen.k0_pay1 (F := Ideal) (Gen.iblk0 V c 0 t) (Gen.iblk0 V c 1 t) (ix2 p q)
    = ExactProduct.mm (M := 50000) (K := 128) (N := 128) (V c main_arg0) (V c main_arg2) (((cfg0.win 2).blk t).view.emb (ix2 p q))
  rw [he, pay_apply, ExactProduct.mm_apply]
  refine Finset.sum_congr rfl fun k _ => ?_
  rw [lhs_blk V c t p k ⟨5000 * t.val + p.val, by omega⟩ rfl, rhs_blk V c t k q]

/-- An index of the output array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the output array lies in the block of the point its row falls in: row r is in block r / 5000. -/
theorem cover (i : S50000x128.Idx) :
    ∃ t : Fin cfg0.N, (cfg0.win 2).flush t = true ∧ i ∈ ((cfg0.win 2).blk t).view.set := by
  have hN : cfg0.N = 10 := Gen.N_0
  have hi0 : (i 0).val < 50000 := (i 0).isLt
  have hi1 : (i 1).val < 128 := (i 1).isLt
  refine ⟨⟨(i 0).val / 5000, by rw [hN]; omega⟩, Gen.flush0_2 _, ?_⟩
  obtain ⟨-, -, -, -, e0, e1⟩ := idx_facts ⟨(i 0).val / 5000, by rw [hN]; omega⟩
  rw [mem_blk]
  intro a
  match a with
  | ⟨0, _⟩ =>
    show win0_2.index _ (0 : Fin 2) * 5000 ≤ (i 0).val ∧ (i 0).val < win0_2.index _ (0 : Fin 2) * 5000 + 5000
    rw [e0]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e1]; omega

/-- After the first region its output array is the exact product of the two arrays the region was entered with. -/
theorem final (V : (c : Dev nD) → (b : Ref sig .tc) → Buf (Elt Ideal) ((c : Thread nD τ).loc b)) (c : Dev nD) :
    (Gen.dat0 (F := Ideal) V c).arrAt 2 cfg0.N
      = ExactProduct.mm (M := 50000) (K := 128) (N := 128) (V c main_arg0) (V c main_arg2) :=
  (Gen.dat0 V c).arrAt_eq_of_cover 2 (ExactProduct.mm (M := 50000) (K := 128) (N := 128) (V c main_arg0) (V c main_arg2))
    (fun t _ => flushed_eq V c t) cover

end Cert.KernelIdeal.Region0

end
-- ==== Proof.Region1.lean ====
/-
  The second region's output array, after the region, as one function of the three arrays the region was entered with:
  the layer max(a + bias row, 0) · W, entry by entry, Σ_k max(a(r, k) + b(0, k), 0) · W(k, c) on the extended reals, the
  bias one row [1, 128] copied into every row, the floor of the rectifier the f32 word 0 kept unevaluated.
  Grid point t takes rows 5000 t … 5000 t + 4999 of a, the whole bias row and the whole of W, and writes the result
  back to the same rows of the output; the ten row blocks tile the 50000 rows, so the array ends holding the whole layer.
-/
import proofs.«141084_j23390391894414_1_alg».proof.Proof.Gen.KernelIdeal.Frame
import proofs.«141084_j23390391894414_1_alg».proof.Proof.GcnSpec
import proofs.«141084_j23390391894414_1_alg».proof.Proof.LibDenseLayer
import Idealize.ShloMosaic.Lib.Pipeline.Value
import Idealize.ShloMosaic.Lib.ValueLayout

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's payload at an entry: row p of max(block + bias row, 0) against column q of the weights. The bias is
    one row [1, 128] copied into every row of the block; the floor of the rectifier is the f32 word 0, kept as it is. -/
theorem pay_apply (x0 : FVec Ideal S5000x128 .f32) (x1 : FVec Ideal S1x128 .f32) (x2 : FVec Ideal S128x64 .f32)
    (p : Fin 5000) (q : Fin 64) :
    Gen.k1_pay1 (F := Ideal) x0 x1 x2 (ix2 p q)
      = ∑ k : Fin 128, max (x0 (ix2 p k) + x1 (ix2 (0 : Fin 1) k)) Cert.Gcn.floor0 * x2 (ix2 k q) := by
  unfold Gen.k1_pay1
  refine (PlainMatmul.apply_zero (M := 5000) (K := 128) (N := 64)
    (truncf .bf16 (maximumf (addf (shapeCast S5000x128 x0 shapeCasts_S5000x128_S5000x128)
        (broadcastTo S5000x128 (shapeCast S1x128 x1 shapeCasts_S1x128_S1x128) broadcasts_S1x128_S5000x128))
      (broadcast S5000x128 (Scalar.ofBits .f32 0x00000000#32))) bitsLt_bf16_f32)
    (truncf .bf16 x2 bitsLt_bf16_f32) p q).trans ?_
  refine Finset.sum_congr rfl fun k _ => ?_
  rw [truncf_apply, truncf_apply, maximumf_apply, addf_apply, shapeCast_self, shapeCast_self,
    broadcastTo_1b_ab_apply, broadcast_apply]
  rfl

/-- The printed index maps over the grid: the row-blocked input's block and the output's block are row block t, all
    columns; the bias row's block and the weights' block are the whole arrays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The row-blocked input's block at point t is rows 5000 t … 5000 t + 4999 of its array. -/
theorem lhs_blk (c : Dev nD) (t : Fin cfg1.N) (p : Fin 5000) (k : Fin 128) (r : Fin 50000)
    (hr : r.val = 5000 * t.val + p.val) :
    (Gen.iblk1 V c 0 t : Vec Ideal S5000x128 .f32) (ix2 p k) = (V c main_v44 : S50000x128.Idx → EReal) (ix2 r k) := by
  obtain ⟨e0, e1, -⟩ := idx_facts t
  unfold Gen.iblk1
  rw [View.read_apply]
  show V c main_v44 _ = V c main_v44 _
  refine congrArg (V c main_v44) (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The bias window's block at every point is the whole bias row. -/
theorem bias_blk (c : Dev nD) (t : Fin cfg1.N) (k : Fin 128) :
    (Gen.iblk1 V c 1 t : Vec Ideal S1x128 .f32) (ix2 (0 : Fin 1) k) = (V c main_v45 : S1x128.Idx → EReal) (ix2 (0 : Fin 1) k) := by
  obtain ⟨-, -, e0, e1, -⟩ := idx_facts t
  unfold Gen.iblk1
  rw [View.read_apply]
  show V c main_v45 _ = V c main_v45 _
  refine congrArg (V c main_v45) (funext fun a => Fin.ext ?_)
  match a with
  | ⟨0, _⟩ => show win1_1.index t (0 : Fin 2) * 1 + 1 * (0 : Fin 1).val = (0 : Fin 1).val; rw [e0]; rfl
  | ⟨1, _⟩ => show win1_1.index t (1 : Fin 2) * 128 + 1 * k.val = k.val; rw [e1]; omega

/-- The weights' block at every point is the whole weight matrix. -/
theorem rhs_blk (c : Dev nD) (t : Fin cfg1.N) (k : Fin 128) (q : Fin 64) :
    (Gen.iblk1 V c 2 t : Vec Ideal S128x64 .f32) (ix2 k q) = (V c main_arg4 : S128x64.Idx → EReal) (ix2 k q) := by
  obtain ⟨-, -, -, -, e0, e1, -⟩ := idx_facts t
  unfold Gen.iblk1
  rw [View.read_apply]
  show V c main_arg4 _ = V c main_arg4 _
  refine congrArg (V c main_arg4) (funext fun a => Fin.ext ?_)
  match a with
  | ⟨0, _⟩ => show win1_2.index t (0 : Fin 2) * 128 + 1 * k.val = k.val; rw [e0]; omega
  | ⟨1, _⟩ => show win1_2.index t (1 : Fin 2) * 64 + 1 * q.val = q.val; rw [e1]; omega

/-- What point t writes back is block t of the layer's whole-array function of the three arrays the region was
    entered with. -/
theorem flushed_eq (c : Dev nD) (t : Fin cfg1.N) :
    (Gen.dat1 V c).flushed 3 t
      = ((cfg1.win 3).blk t).view.read (Elt Ideal)
          (Cert.Gcn.layer (M := 50000) (K := 128) (N := 64) (V c main_v44) (V c main_v45) (V c main_arg4)) := by
  show (cfg1.win 3).cut (grid1.coords t) ((Gen.dat1 V c).after 3 t) = _
  rw [Gen.after1_3]
  unfold Gen.out1_3
  rw [View.canon_unit_zero hz]
  simp only [View.ld_unit_zero (S := S5000x128) hz, View.ld_unit_zero (S := S1x128) hz, View.ld_unit_zero (S := S128x64) hz]
  obtain ⟨-, -, -, -, -, -, e0, e1⟩ := idx_facts t
  have hN : cfg1.N = 10 := Gen.N_1
  have ht : t.val < 10 := hN ▸ t.isLt
  funext j
  obtain ⟨p, q, rfl⟩ : ∃ (p : Fin 5000) (q : Fin 64), j = ix2 p q := ⟨j 0, j 1, eq_ix2 j⟩
  have hp : p.val < 5000 := p.isLt
  have he : ((cfg1.win 3).blk t).view.emb (ix2 p q)
      = (ix2 (⟨5000 * t.val + p.val, by omega⟩ : Fin 50000) q : S50000x64.Idx) := by
    funext a; apply Fin.ext
    match a with
    | ⟨0, _⟩ => show win1_3.index t (0 : Fin 2) * 5000 + 1 * p.val = 5000 * t.val + p.val; rw [e0]; omega
    | ⟨1, _⟩ => show win1_3.index t (1 : Fin 2) * 64 + 1 * q.val = q.val; rw [e1]; omega
  show Gen.k1_pay1 (F := Ideal) (Gen.iblk1 V c 0 t) (Gen.iblk1 V c 1 t) (Gen.iblk1 V c 2 t) (ix2 p q)
    = Cert.Gcn.layer (M := 50000) (K := 128) (N := 64) (V c main_v44) (V c main_v45) (V c main_arg4)
        (((cfg1.win 3).blk t).view.emb (ix2 p q))
  rw [he, pay_apply, Cert.Gcn.layer_apply]
  refine Finset.sum_congr rfl fun k _ => ?_
  rw [lhs_blk V c t p k ⟨5000 * t.val + p.val, by omega⟩ rfl, bias_blk V c t k, rhs_blk V c t k q]

/-- An index of the output array is in point t's block iff each coordinate is in the block's range on its axis. -/
theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v46).slice (win1_3.rect t)).set ↔ _
  rw [View.set_slice_whole, Rect.mem_set_unit]
  exact Iff.rfl

/-- Every index of the output array lies in the block of the point its row falls in: row r is in block r / 5000. -/
theorem cover (i : S50000x64.Idx) :
    ∃ t : Fin cfg1.N, (cfg1.win 3).flush t = true ∧ i ∈ ((cfg1.win 3).blk t).view.set := by
  have hN : cfg1.N = 10 := Gen.N_1
  have hi0 : (i 0).val < 50000 := (i 0).isLt
  have hi1 : (i 1).val < 64 := (i 1).isLt
  refine ⟨⟨(i 0).val / 5000, by rw [hN]; omega⟩, Gen.flush1_3 _, ?_⟩
  obtain ⟨-, -, -, -, -, -, e0, e1⟩ := idx_facts ⟨(i 0).val / 5000, by rw [hN]; omega⟩
  rw [mem_blk]
  intro a
  match a with
  | ⟨0, _⟩ =>
    show win1_3.index _ (0 : Fin 2) * 5000 ≤ (i 0).val ∧ (i 0).val < win1_3.index _ (0 : Fin 2) * 5000 + 5000
    rw [e0]; show (i 0).val / 5000 * 5000 ≤ (i 0).val ∧ (i 0).val < (i 0).val / 5000 * 5000 + 5000; omega
  | ⟨1, _⟩ =>
    show win1_3.index _ (1 : Fin 2) * 64 ≤ (i 1).val ∧ (i 1).val < win1_3.index _ (1 : Fin 2) * 64 + 64
    rw [e1]; omega

/-- After the second region its output array is the layer's whole-array function, max(a + bias row, 0) · W, of the
    three arrays the region was entered with. -/
theorem final (V : (c : Dev nD) → (b : Ref sig .tc) → Buf (Elt Ideal) ((c : Thread nD τ).loc b)) (c : Dev nD) :
    (Gen.dat1 (F := Ideal) V c).arrAt 3 cfg1.N
      = Cert.Gcn.layer (M := 50000) (K := 128) (N := 64) (V c main_v44) (V c main_v45) (V c main_arg4) :=
  (Gen.dat1 V c).arrAt_eq_of_cover 3
    (Cert.Gcn.layer (M := 50000) (K := 128) (N := 64) (V c main_v44) (V c main_v45) (V c main_arg4))
    (fun t _ => flushed_eq V c t) cover

end Cert.KernelIdeal.Region1

end
-- ==== Proof.Region2.lean ====
/-
  The third kernel region: the decoder, computed on blocks of 5000 rows.

  On each block the body computes  max(max(A + b, 0) · W₁ + b₁, 0) · W₂ + b₂,  A the block's 5000 rows of the 64-column
  input, each bias a [1, n] row added to every row, the two products exact into zero accumulators, the rectifier's floor
  the f32 word 0 read on the extended reals. An entry (r, c) of the result depends on row r of A only, and on the whole
  of the weights and biases. The ten blocks tile the 50000 rows, so after the region the output array is the decoder of
  the six arrays the region was entered with, entry by entry.
-/
import proofs.«141084_j23390391894414_1_alg».proof.Proof.Gen.KernelIdeal.Frame
import proofs.«141084_j23390391894414_1_alg».proof.Proof.GcnSpec
import proofs.«141084_j23390391894414_1_alg».proof.Proof.LibDenseLayer
import Idealize.ShloMosaic.Lib.Pipeline.Value
import Idealize.ShloMosaic.Lib.ValueLayout

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx

/-- The body's result at the entry (p, q) of a block: the decoder of the block's rows and of the weights and biases,
    read at that entry. The outer sum is the second product at (p, q); under it the rectified first product plus its
    bias row at (p, h); under that the rectified sum of the input and its bias row at (p, k). -/
theorem payload_apply (x0 : Vec Ideal S5000x64 .f32) (x1 : Vec Ideal S1x64 .f32) (x2 : Vec Ideal S64x128 .f32)
    (x3 : Vec Ideal S1x128 .f32) (x4 : Vec Ideal S128x128 .f32) (x5 : Vec Ideal S1x128 .f32) (p : Fin 5000) (q : Fin 128) :
    k2_pay1 x0 x1 x2 x3 x4 x5 (ix2 p q)
      = Cert.Gcn.decoder (M := 5000) (K := 64) (H := 128) (N := 128) x0 x1 x2 x3 x4 x5 (ix2 p q) := by
  rw [Cert.Gcn.decoder_apply]
  unfold k2_pay1
  simp only [shapeCast_self]
  rw [addf_apply, broadcastTo_1b_ab_apply]
  refine congrArg (· + x5 (ix2 (0 : Fin 1) q)) ?_
  refine (PlainMatmul.apply_zero (M := 5000) (K := 128) (N := 128) _ _ p q).trans ?_
  refine Finset.sum_congr rfl fun h _ => ?_
  rw [truncf_apply, truncf_apply]
  refine congrArg (· * x4 (ix2 h q)) ?_
  refine (Cert.LibDenseLayer.relu_dense_apply (M := 5000) (K := 64) (N := 128) _ _ x3 _ _ p h).trans ?_
  refine congrArg₂ max (congrArg (· + x3 (ix2 (0 : Fin 1) h)) (Finset.sum_congr rfl fun k _ => ?_)) rfl
  rw [truncf_apply, truncf_apply, maximumf_apply, addf_apply, broadcastTo_1b_ab_apply, broadcast_apply]
  rfl

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: the row-blocked input and the output are at block (t, 0) at point t; every weight
    and bias window stays at block (0, 0). -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row p of the block at point t is row 5000·t + p of the array. -/
def row (t : Fin cfg2.N) (p : Fin 5000) : Fin 50000 :=
  ⟨t.val * 5000 + p.val, by have ht : t.val < 10 := lt_of_lt_of_eq t.isLt N_2; have hp := p.isLt; omega⟩

/-- The decoder of the six arrays the region is entered with. -/
abbrev result (c : Dev nD) : (⟨2, ![50000, 128]⟩ : Shape).Idx → EReal :=
  Cert.Gcn.decoder (M := 50000) (K := 64) (H := 128) (N := 128)
    (V c main_v60) (V c main_v61) (V c main_arg6) (V c main_v62) (V c main_arg8) (V c main_v63)

/-- The input block at point t, at (p, k), is the input array at (5000·t + p, k). -/
theorem input_block (c : Dev nD) (t : Fin cfg2.N) (p : Fin 5000) (k : Fin 64) :
    iblk2 V c 0 t (ix2 p k) = V c main_v60 (ix2 (row t p) k) := by
  obtain ⟨e0, e1, -⟩ := index_facts t
  unfold iblk2
  rw [View.read_apply]
  refine congrArg (V c main_v60) (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 64 + 1 * k.val = k.val; rw [e1]; omega

/-- The first bias window's block is its whole row. -/
theorem bias0_block (c : Dev nD) (t : Fin cfg2.N) (k : Fin 64) :
    iblk2 V c 1 t (ix2 (0 : Fin 1) k) = V c main_v61 (ix2 (0 : Fin 1) k) := by
  obtain ⟨-, -, e0, e1, -⟩ := index_facts t
  unfold iblk2
  rw [View.read_apply]
  refine congrArg (V c main_v61) (funext fun a => Fin.ext ?_)
  match a with
  | ⟨0, _⟩ => show win2_1.index t (0 : Fin 2) * 1 + 1 * 0 = 0; rw [e0]
  | ⟨1, _⟩ => show win2_1.index t (1 : Fin 2) * 64 + 1 * k.val = k.val; rw [e1]; omega

/-- The first weight window's block is its whole array. -/
theorem weight1_block (c : Dev nD) (t : Fin cfg2.N) (k : Fin 64) (h : Fin 128) :
    iblk2 V c 2 t (ix2 k h) = V c main_arg6 (ix2 k h) := by
  obtain ⟨-, -, -, -, e0, e1, -⟩ := index_facts t
  unfold iblk2
  rw [View.read_apply]
  refine congrArg (V c main_arg6) (funext fun a => Fin.ext ?_)
  match a with
  | ⟨0, _⟩ => show win2_2.index t (0 : Fin 2) * 64 + 1 * k.val = k.val; rw [e0]; omega
  | ⟨1, _⟩ => show win2_2.index t (1 : Fin 2) * 128 + 1 * h.val = h.val; rw [e1]; omega

/-- The second bias window's block is its whole row. -/
theorem bias1_block (c : Dev nD) (t : Fin cfg2.N) (h : Fin 128) :
    iblk2 V c 3 t (ix2 (0 : Fin 1) h) = V c main_v62 (ix2 (0 : Fin 1) h) := by
  obtain ⟨-, -, -, -, -, -, e0, e1, -⟩ := index_facts t
  unfold iblk2
  rw [View.read_apply]
  refine congrArg (V c main_v62) (funext fun a => Fin.ext ?_)
  match a with
  | ⟨0, _⟩ => show win2_3.index t (0 : Fin 2) * 1 + 1 * 0 = 0; rw [e0]
  | ⟨1, _⟩ => show win2_3.index t (1 : Fin 2) * 128 + 1 * h.val = h.val; rw [e1]; omega

/-- The second weight window's block is its whole array. -/
theorem weight2_block (c : Dev nD) (t : Fin cfg2.N) (h : Fin 128) (q : Fin 128) :
    iblk2 V c 4 t (ix2 h q) = V c main_arg8 (ix2 h q) := by
  obtain ⟨-, -, -, -, -, -, -, -, e0, e1, -⟩ := index_facts t
  unfold iblk2
  rw [View.read_apply]
  refine congrArg (V c main_arg8) (funext fun a => Fin.ext ?_)
  match a with
  | ⟨0, _⟩ => show win2_4.index t (0 : Fin 2) * 128 + 1 * h.val = h.val; rw [e0]; omega
  | ⟨1, _⟩ => show win2_4.index t (1 : Fin 2) * 128 + 1 * q.val = q.val; rw [e1]; omega

/-- The third bias window's block is its whole row. -/
theorem bias2_block (c : Dev nD) (t : Fin cfg2.N) (q : Fin 128) :
    iblk2 V c 5 t (ix2 (0 : Fin 1) q) = V c main_v63 (ix2 (0 : Fin 1) q) := by
  obtain ⟨-, -, -, -, -, -, -, -, -, -, e0, e1, -⟩ := index_facts t
  unfold iblk2
  rw [View.read_apply]
  refine congrArg (V c main_v63) (funext fun a => Fin.ext ?_)
  match a with
  | ⟨0, _⟩ => show win2_5.index t (0 : Fin 2) * 1 + 1 * 0 = 0; rw [e0]
  | ⟨1, _⟩ => show win2_5.index t (1 : Fin 2) * 128 + 1 * q.val = q.val; rw [e1]; omega

/-- The entry (p, q) of the output block at point t sits at (5000·t + p, q) of the output array. -/
theorem output_index (t : Fin cfg2.N) (p : Fin 5000) (q : Fin 128) :
    ((cfg2.win 6).blk t).view.emb (ix2 p q) = ix2 (row t p) q := by
  obtain ⟨-, -, -, -, -, -, -, -, -, -, -, -, e0, e1⟩ := index_facts t
  refine funext fun a => Fin.ext ?_
  match a with
  | ⟨0, _⟩ => show win2_6.index t (0 : Fin 2) * 5000 + 1 * p.val = t.val * 5000 + p.val; rw [e0]; omega
  | ⟨1, _⟩ => show win2_6.index t (1 : Fin 2) * 128 + 1 * q.val = q.val; rw [e1]; omega

/-- What point t writes back is block t of the decoder of the entry arrays: at (p, q) the body's result reads row p of
    the input block, which is row 5000·t + p of the input array, and the whole of the weights and biases. -/
theorem flushed_eq (c : Dev nD) (t : Fin cfg2.N) :
    (dat2 V c).flushed 6 t = ((cfg2.win 6).blk t).view.read (Elt Ideal) (result V c) := by
  show (cfg2.win 6).cut (grid2.coords t) ((dat2 V c).after 6 t) = _
  rw [after2_6]
  unfold out2_6
  rw [View.canon_unit_zero zero_offsets]
  simp only [View.ld_unit_zero (S := S5000x64) zero_offsets, View.ld_unit_zero (S := S1x64) zero_offsets,
    View.ld_unit_zero (S := S64x128) zero_offsets, View.ld_unit_zero (S := S1x128) zero_offsets,
    View.ld_unit_zero (S := S128x128) zero_offsets]
  funext j
  obtain ⟨p, q, rfl⟩ : ∃ (p : Fin 5000) (q : Fin 128), j = ix2 p q := ⟨j 0, j 1, eq_ix2 j⟩
  rw [View.read_apply, output_index]
  refine (payload_apply _ _ _ _ _ _ p q).trans ?_
  show _ = Cert.Gcn.decoder (M := 50000) (K := 64) (H := 128) (N := 128)
    (V c main_v60) (V c main_v61) (V c main_arg6) (V c main_v62) (V c main_arg8) (V c main_v63) (ix2 (row t p) q)
  rw [Cert.Gcn.decoder_apply, Cert.Gcn.decoder_apply]
  simp only [input_block, bias0_block, weight1_block, bias1_block, weight2_block, bias2_block]

/-- An index of the output array is in point t's block iff each coordinate is in the block's range on its axis. -/
theorem mem_blk (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v64).slice (win2_6.rect t)).set ↔ _
  rw [View.set_slice_whole, Rect.mem_set_unit]
  exact Iff.rfl

/-- The ten blocks tile the rows: row r is in the block of point r / 5000. -/
theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  let t : Fin cfg2.N := ⟨(i 0).val / 5000, lt_of_lt_of_eq (show (i 0).val / 5000 < 10 by omega) N_2.symm⟩
  obtain ⟨-, -, -, -, -, -, -, -, -, -, -, -, e0, e1⟩ := index_facts t
  have ht : t.val = (i 0).val / 5000 := rfl
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- After the region the output array is the decoder of the six arrays the region was entered with. -/
theorem final (V : (c : Dev nD) → (b : Ref sig .tc) → Buf (Elt Ideal) ((c : Thread nD τ).loc b)) (c : Dev nD) :
    (Gen.dat2 (F := Ideal) V c).arrAt 6 cfg2.N
      = Cert.Gcn.decoder (M := 50000) (K := 64) (H := 128) (N := 128)
          (V c main_v60) (V c main_v61) (V c main_arg6) (V c main_v62) (V c main_arg8) (V c main_v63) :=
  (dat2 V c).arrAt_eq_of_cover 6 (result V c) (fun t _ => flushed_eq V c t) cover

end Cert.KernelIdeal.Region2

end
-- ==== Proof.KernelValue.lean ====
/-
  The idealized kernel's result as a function of its arguments.

  The program runs host operations, the first kernel region (x · W₁), host operations (the aggregation of that product
  along the edges, and the first bias laid out as a row), the second region (max(· + b₁, 0) · W₂), host operations (the
  aggregation of that, and the three remaining biases as rows), and the third region (the decoder). The buffer contents
  at the boundaries between these segments are a fold from the launch memory. Read at the buffers each segment
  consumes: the sources, targets and weights of the messages are computed once, before the first region, from the edge
  list alone, and no later segment writes them; every argument keeps its launch contents; a region's output is the
  whole-array function of the arrays it was entered with. Composed, the result buffer ends at
  decoder(agg(layer(agg(x · W₁), b₁, W₂)), b₂, Wd₁, bd₁, Wd₂, bd₂).
-/
import proofs.«141084_j23390391894414_1_alg».proof.Proof.Gen.KernelIdeal.Frame
import proofs.«141084_j23390391894414_1_alg».proof.Proof.KerChain
import proofs.«141084_j23390391894414_1_alg».proof.Proof.LibFoldAppend
import proofs.«141084_j23390391894414_1_alg».proof.Proof.Region0
import proofs.«141084_j23390391894414_1_alg».proof.Proof.Region1
import proofs.«141084_j23390391894414_1_alg».proof.Proof.Region2
import Idealize.ShloMosaic.Lib.StableHlo.Run

set_option maxRecDepth 16384

noncomputable section

namespace Cert.KernelIdeal.LastValue

open Cert.KernelIdeal Cert.KernelIdeal.Gen
open Idealize.ShloMosaic Idealize.ShloMosaic.TcCoe Idealize.SL.Sem Idealize.ShloMosaic.StableHlo

section Boundaries

variable {F : FTy → Type} [FloatOps F]
variable (m : (ℓ : Loc nD τ sig) → Buf (Elt F) ℓ) (ρ : Dev nD → PrngReg)

/-! ## Before the first region: the three host stretches as one list -/

theorem entry0_eq (c : Dev nD) : W3 m ρ c = after (hostOps0 ++ (hostOps0_1 ++ hostOps0_2)) (W0 m ρ c) := by
  rw [LibFoldAppend.after_append, LibFoldAppend.after_append]

/-- The sources of the messages, at the first region's entry. -/
theorem entry0_row (c : Dev nD) : W3 m ρ c (Proc.devRef .tc main_v3) = Chain.rowOf (m ((c.tc : Thread nD τ).loc main_arg1)) := by
  rw [entry0_eq]
  simp only [hostOps0, hostOps0_1, hostOps0_2, List.cons_append, List.nil_append]
  after_results
  rfl

/-- The targets of the messages, at the first region's entry. -/
theorem entry0_col (c : Dev nD) : W3 m ρ c (Proc.devRef .tc main_v6) = Chain.colOf (m ((c.tc : Thread nD τ).loc main_arg1)) := by
  rw [entry0_eq]
  simp only [hostOps0, hostOps0_1, hostOps0_2, List.cons_append, List.nil_append]
  after_results
  rfl

set_option maxHeartbeats 8000000 in
/-- The weights of the messages, at the first region's entry. -/
theorem entry0_norm (c : Dev nD) :
    W3 m ρ c (Proc.devRef .tc main_v29) = Chain.normOf (Chain.rowOf (m ((c.tc : Thread nD τ).loc main_arg1))) (Chain.colOf (m ((c.tc : Thread nD τ).loc main_arg1))) := by
  rw [entry0_eq]
  simp only [hostOps0, hostOps0_1, hostOps0_2, List.cons_append, List.nil_append]
  after_results
  rfl

/-- An argument the host stretches before the first region do not write keeps its launch contents. -/
theorem entry0_arg0 (c : Dev nD) : W3 m ρ c (Proc.devRef .tc main_arg0) = (m ((c.tc : Thread nD τ).loc main_arg0)) := by
  rw [entry0_eq]
  simp only [hostOps0, hostOps0_1, hostOps0_2, List.cons_append, List.nil_append]
  after_results
theorem entry0_arg2 (c : Dev nD) : W3 m ρ c (Proc.devRef .tc main_arg2) = (m ((c.tc : Thread nD τ).loc main_arg2)) := by
  rw [entry0_eq]
  simp only [hostOps0, hostOps0_1, hostOps0_2, List.cons_append, List.nil_append]
  after_results
theorem entry0_arg3 (c : Dev nD) : W3 m ρ c (Proc.devRef .tc main_arg3) = (m ((c.tc : Thread nD τ).loc main_arg3)) := by
  rw [entry0_eq]
  simp only [hostOps0, hostOps0_1, hostOps0_2, List.cons_append, List.nil_append]
  after_results
theorem entry0_arg4 (c : Dev nD) : W3 m ρ c (Proc.devRef .tc main_arg4) = (m ((c.tc : Thread nD τ).loc main_arg4)) := by
  rw [entry0_eq]
  simp only [hostOps0, hostOps0_1, hostOps0_2, List.cons_append, List.nil_append]
  after_results
theorem entry0_arg5 (c : Dev nD) : W3 m ρ c (Proc.devRef .tc main_arg5) = (m ((c.tc : Thread nD τ).loc main_arg5)) := by
  rw [entry0_eq]
  simp only [hostOps0, hostOps0_1, hostOps0_2, List.cons_append, List.nil_append]
  after_results
theorem entry0_arg6 (c : Dev nD) : W3 m ρ c (Proc.devRef .tc main_arg6) = (m ((c.tc : Thread nD τ).loc main_arg6)) := by
  rw [entry0_eq]
  simp only [hostOps0, hostOps0_1, hostOps0_2, List.cons_append, List.nil_append]
  after_results
theorem entry0_arg7 (c : Dev nD) : W3 m ρ c (Proc.devRef .tc main_arg7) = (m ((c.tc : Thread nD τ).loc main_arg7)) := by
  rw [entry0_eq]
  simp only [hostOps0, hostOps0_1, hostOps0_2, List.cons_append, List.nil_append]
  after_results
theorem entry0_arg8 (c : Dev nD) : W3 m ρ c (Proc.devRef .tc main_arg8) = (m ((c.tc : Thread nD τ).loc main_arg8)) := by
  rw [entry0_eq]
  simp only [hostOps0, hostOps0_1, hostOps0_2, List.cons_append, List.nil_append]
  after_results
theorem entry0_arg9 (c : Dev nD) : W3 m ρ c (Proc.devRef .tc main_arg9) = (m ((c.tc : Thread nD τ).loc main_arg9)) := by
  rw [entry0_eq]
  simp only [hostOps0, hostOps0_1, hostOps0_2, List.cons_append, List.nil_append]
  after_results

/-! ## Across the first region -/

theorem exit0_xw (c : Dev nD) : W4 m ρ c (Proc.devRef .tc main_v30) = (dat0 (V3 m ρ) c).arrAt 2 cfg0.N := W4_arr m ρ c 2
theorem exit0_v3 (c : Dev nD) : W4 m ρ c (Proc.devRef .tc main_v3) = W3 m ρ c (Proc.devRef .tc main_v3) := W4_of_ne m ρ c main_v3 (by decide)
theorem exit0_v6 (c : Dev nD) : W4 m ρ c (Proc.devRef .tc main_v6) = W3 m ρ c (Proc.devRef .tc main_v6) := W4_of_ne m ρ c main_v6 (by decide)
theorem exit0_v29 (c : Dev nD) : W4 m ρ c (Proc.devRef .tc main_v29) = W3 m ρ c (Proc.devRef .tc main_v29) := W4_of_ne m ρ c main_v29 (by decide)
theorem exit0_arg3 (c : Dev nD) : W4 m ρ c (Proc.devRef .tc main_arg3) = W3 m ρ c (Proc.devRef .tc main_arg3) := W4_of_ne m ρ c main_arg3 (by decide)
theorem exit0_arg4 (c : Dev nD) : W4 m ρ c (Proc.devRef .tc main_arg4) = W3 m ρ c (Proc.devRef .tc main_arg4) := W4_of_ne m ρ c main_arg4 (by decide)
theorem exit0_arg5 (c : Dev nD) : W4 m ρ c (Proc.devRef .tc main_arg5) = W3 m ρ c (Proc.devRef .tc main_arg5) := W4_of_ne m ρ c main_arg5 (by decide)
theorem exit0_arg6 (c : Dev nD) : W4 m ρ c (Proc.devRef .tc main_arg6) = W3 m ρ c (Proc.devRef .tc main_arg6) := W4_of_ne m ρ c main_arg6 (by decide)
theorem exit0_arg7 (c : Dev nD) : W4 m ρ c (Proc.devRef .tc main_arg7) = W3 m ρ c (Proc.devRef .tc main_arg7) := W4_of_ne m ρ c main_arg7 (by decide)
theorem exit0_arg8 (c : Dev nD) : W4 m ρ c (Proc.devRef .tc main_arg8) = W3 m ρ c (Proc.devRef .tc main_arg8) := W4_of_ne m ρ c main_arg8 (by decide)
theorem exit0_arg9 (c : Dev nD) : W4 m ρ c (Proc.devRef .tc main_arg9) = W3 m ρ c (Proc.devRef .tc main_arg9) := W4_of_ne m ρ c main_arg9 (by decide)

/-! ## The host stretch between the first and the second region -/

set_option maxHeartbeats 8000000 in
/-- The aggregation of the first region's output, at the second region's entry. -/
theorem entry1_agg (c : Dev nD) :
    W5 m ρ c (Proc.devRef .tc main_v44)
      = Chain.agg128 (W4 m ρ c (Proc.devRef .tc main_v3)) (W4 m ρ c (Proc.devRef .tc main_v6)) (W4 m ρ c (Proc.devRef .tc main_v29)) (W4 m ρ c (Proc.devRef .tc main_v30)) := by
  show StableHlo.after hostOps1 (W4 m ρ c) (Proc.devRef .tc main_v44) = _
  after_results
  rfl

/-- The first bias as a row, at the second region's entry. -/
theorem entry1_bias (c : Dev nD) :
    W5 m ρ c (Proc.devRef .tc main_v45) = shapeCast S1x128 (W4 m ρ c (Proc.devRef .tc main_arg3)) Facts₀.shapeCasts_S128_S1x128 := by
  show StableHlo.after hostOps1 (W4 m ρ c) (Proc.devRef .tc main_v45) = _
  after_results
  rfl
theorem entry1_v3 (c : Dev nD) : W5 m ρ c (Proc.devRef .tc main_v3) = W4 m ρ c (Proc.devRef .tc main_v3) := by
  show StableHlo.after hostOps1 (W4 m ρ c) (Proc.devRef .tc main_v3) = _
  after_results
theorem entry1_v6 (c : Dev nD) : W5 m ρ c (Proc.devRef .tc main_v6) = W4 m ρ c (Proc.devRef .tc main_v6) := by
  show StableHlo.after hostOps1 (W4 m ρ c) (Proc.devRef .tc main_v6) = _
  after_results
theorem entry1_v29 (c : Dev nD) : W5 m ρ c (Proc.devRef .tc main_v29) = W4 m ρ c (Proc.devRef .tc main_v29) := by
  show StableHlo.after hostOps1 (W4 m ρ c) (Proc.devRef .tc main_v29) = _
  after_results
theorem entry1_arg4 (c : Dev nD) : W5 m ρ c (Proc.devRef .tc main_arg4) = W4 m ρ c (Proc.devRef .tc main_arg4) := by
  show StableHlo.after hostOps1 (W4 m ρ c) (Proc.devRef .tc main_arg4) = _
  after_results
theorem entry1_arg5 (c : Dev nD) : W5 m ρ c (Proc.devRef .tc main_arg5) = W4 m ρ c (Proc.devRef .tc main_arg5) := by
  show StableHlo.after hostOps1 (W4 m ρ c) (Proc.devRef .tc main_arg5) = _
  after_results
theorem entry1_arg6 (c : Dev nD) : W5 m ρ c (Proc.devRef .tc main_arg6) = W4 m ρ c (Proc.devRef .tc main_arg6) := by
  show StableHlo.after hostOps1 (W4 m ρ c) (Proc.devRef .tc main_arg6) = _
  after_results
theorem entry1_arg7 (c : Dev nD) : W5 m ρ c (Proc.devRef .tc main_arg7) = W4 m ρ c (Proc.devRef .tc main_arg7) := by
  show StableHlo.after hostOps1 (W4 m ρ c) (Proc.devRef .tc main_arg7) = _
  after_results
theorem entry1_arg8 (c : Dev nD) : W5 m ρ c (Proc.devRef .tc main_arg8) = W4 m ρ c (Proc.devRef .tc main_arg8) := by
  show StableHlo.after hostOps1 (W4 m ρ c) (Proc.devRef .tc main_arg8) = _
  after_results
theorem entry1_arg9 (c : Dev nD) : W5 m ρ c (Proc.devRef .tc main_arg9) = W4 m ρ c (Proc.devRef .tc main_arg9) := by
  show StableHlo.after hostOps1 (W4 m ρ c) (Proc.devRef .tc main_arg9) = _
  after_results

/-! ## Across the second region -/

theorem exit1_xw (c : Dev nD) : W6 m ρ c (Proc.devRef .tc main_v46) = (dat1 (V5 m ρ) c).arrAt 3 cfg1.N := W6_arr m ρ c 3
theorem exit1_v3 (c : Dev nD) : W6 m ρ c (Proc.devRef .tc main_v3) = W5 m ρ c (Proc.devRef .tc main_v3) := W6_of_ne m ρ c main_v3 (by decide)
theorem exit1_v6 (c : Dev nD) : W6 m ρ c (Proc.devRef .tc main_v6) = W5 m ρ c (Proc.devRef .tc main_v6) := W6_of_ne m ρ c main_v6 (by decide)
theorem exit1_v29 (c : Dev nD) : W6 m ρ c (Proc.devRef .tc main_v29) = W5 m ρ c (Proc.devRef .tc main_v29) := W6_of_ne m ρ c main_v29 (by decide)
theorem exit1_arg5 (c : Dev nD) : W6 m ρ c (Proc.devRef .tc main_arg5) = W5 m ρ c (Proc.devRef .tc main_arg5) := W6_of_ne m ρ c main_arg5 (by decide)
theorem exit1_arg6 (c : Dev nD) : W6 m ρ c (Proc.devRef .tc main_arg6) = W5 m ρ c (Proc.devRef .tc main_arg6) := W6_of_ne m ρ c main_arg6 (by decide)
theorem exit1_arg7 (c : Dev nD) : W6 m ρ c (Proc.devRef .tc main_arg7) = W5 m ρ c (Proc.devRef .tc main_arg7) := W6_of_ne m ρ c main_arg7 (by decide)
theorem exit1_arg8 (c : Dev nD) : W6 m ρ c (Proc.devRef .tc main_arg8) = W5 m ρ c (Proc.devRef .tc main_arg8) := W6_of_ne m ρ c main_arg8 (by decide)
theorem exit1_arg9 (c : Dev nD) : W6 m ρ c (Proc.devRef .tc main_arg9) = W5 m ρ c (Proc.devRef .tc main_arg9) := W6_of_ne m ρ c main_arg9 (by decide)

/-! ## The host stretch between the second and the third region -/

set_option maxHeartbeats 8000000 in
/-- The aggregation of the second region's output, at the third region's entry. -/
theorem entry2_agg (c : Dev nD) :
    W7 m ρ c (Proc.devRef .tc main_v60)
      = Chain.agg64 (W6 m ρ c (Proc.devRef .tc main_v3)) (W6 m ρ c (Proc.devRef .tc main_v6)) (W6 m ρ c (Proc.devRef .tc main_v29)) (W6 m ρ c (Proc.devRef .tc main_v46)) := by
  show StableHlo.after hostOps2 (W6 m ρ c) (Proc.devRef .tc main_v60) = _
  after_results
  rfl

theorem entry2_b2 (c : Dev nD) :
    W7 m ρ c (Proc.devRef .tc main_v61) = shapeCast S1x64 (W6 m ρ c (Proc.devRef .tc main_arg5)) Facts₀.shapeCasts_S64_S1x64 := by
  show StableHlo.after hostOps2 (W6 m ρ c) (Proc.devRef .tc main_v61) = _
  after_results
  rfl
theorem entry2_bd1 (c : Dev nD) :
    W7 m ρ c (Proc.devRef .tc main_v62) = shapeCast S1x128 (W6 m ρ c (Proc.devRef .tc main_arg7)) Facts₀.shapeCasts_S128_S1x128 := by
  show StableHlo.after hostOps2 (W6 m ρ c) (Proc.devRef .tc main_v62) = _
  after_results
  rfl
theorem entry2_bd2 (c : Dev nD) :
    W7 m ρ c (Proc.devRef .tc main_v63) = shapeCast S1x128 (W6 m ρ c (Proc.devRef .tc main_arg9)) Facts₀.shapeCasts_S128_S1x128 := by
  show StableHlo.after hostOps2 (W6 m ρ c) (Proc.devRef .tc main_v63) = _
  after_results
  rfl
theorem entry2_arg6 (c : Dev nD) : W7 m ρ c (Proc.devRef .tc main_arg6) = W6 m ρ c (Proc.devRef .tc main_arg6) := by
  show StableHlo.after hostOps2 (W6 m ρ c) (Proc.devRef .tc main_arg6) = _
  after_results
theorem entry2_arg8 (c : Dev nD) : W7 m ρ c (Proc.devRef .tc main_arg8) = W6 m ρ c (Proc.devRef .tc main_arg8) := by
  show StableHlo.after hostOps2 (W6 m ρ c) (Proc.devRef .tc main_arg8) = _
  after_results

/-! ## Across the third region -/

theorem exit2_out (c : Dev nD) : W8 m ρ c (Proc.devRef .tc main_v64) = (dat2 (V7 m ρ) c).arrAt 6 cfg2.N := W8_arr m ρ c 6

/-! ## What is carried from the first region's entry to where it is read -/

theorem row_at4 (c : Dev nD) : W4 m ρ c (Proc.devRef .tc main_v3) = Chain.rowOf (m ((c.tc : Thread nD τ).loc main_arg1)) := (exit0_v3 m ρ c).trans (entry0_row m ρ c)
theorem col_at4 (c : Dev nD) : W4 m ρ c (Proc.devRef .tc main_v6) = Chain.colOf (m ((c.tc : Thread nD τ).loc main_arg1)) := (exit0_v6 m ρ c).trans (entry0_col m ρ c)
theorem norm_at4 (c : Dev nD) : W4 m ρ c (Proc.devRef .tc main_v29) = Chain.normOf (Chain.rowOf (m ((c.tc : Thread nD τ).loc main_arg1))) (Chain.colOf (m ((c.tc : Thread nD τ).loc main_arg1))) :=
  (exit0_v29 m ρ c).trans (entry0_norm m ρ c)
theorem row_at6 (c : Dev nD) : W6 m ρ c (Proc.devRef .tc main_v3) = Chain.rowOf (m ((c.tc : Thread nD τ).loc main_arg1)) :=
  ((exit1_v3 m ρ c).trans (entry1_v3 m ρ c)).trans (row_at4 m ρ c)
theorem col_at6 (c : Dev nD) : W6 m ρ c (Proc.devRef .tc main_v6) = Chain.colOf (m ((c.tc : Thread nD τ).loc main_arg1)) :=
  ((exit1_v6 m ρ c).trans (entry1_v6 m ρ c)).trans (col_at4 m ρ c)
theorem norm_at6 (c : Dev nD) : W6 m ρ c (Proc.devRef .tc main_v29) = Chain.normOf (Chain.rowOf (m ((c.tc : Thread nD τ).loc main_arg1))) (Chain.colOf (m ((c.tc : Thread nD τ).loc main_arg1))) :=
  ((exit1_v29 m ρ c).trans (entry1_v29 m ρ c)).trans (norm_at4 m ρ c)
theorem arg3_at4 (c : Dev nD) : W4 m ρ c (Proc.devRef .tc main_arg3) = (m ((c.tc : Thread nD τ).loc main_arg3)) := (exit0_arg3 m ρ c).trans (entry0_arg3 m ρ c)
theorem arg4_at5 (c : Dev nD) : W5 m ρ c (Proc.devRef .tc main_arg4) = (m ((c.tc : Thread nD τ).loc main_arg4)) :=
  ((entry1_arg4 m ρ c).trans (exit0_arg4 m ρ c)).trans (entry0_arg4 m ρ c)
theorem arg5_at6 (c : Dev nD) : W6 m ρ c (Proc.devRef .tc main_arg5) = (m ((c.tc : Thread nD τ).loc main_arg5)) :=
  (((exit1_arg5 m ρ c).trans (entry1_arg5 m ρ c)).trans (exit0_arg5 m ρ c)).trans (entry0_arg5 m ρ c)
theorem arg7_at6 (c : Dev nD) : W6 m ρ c (Proc.devRef .tc main_arg7) = (m ((c.tc : Thread nD τ).loc main_arg7)) :=
  (((exit1_arg7 m ρ c).trans (entry1_arg7 m ρ c)).trans (exit0_arg7 m ρ c)).trans (entry0_arg7 m ρ c)
theorem arg9_at6 (c : Dev nD) : W6 m ρ c (Proc.devRef .tc main_arg9) = (m ((c.tc : Thread nD τ).loc main_arg9)) :=
  (((exit1_arg9 m ρ c).trans (entry1_arg9 m ρ c)).trans (exit0_arg9 m ρ c)).trans (entry0_arg9 m ρ c)
theorem arg6_at7 (c : Dev nD) : W7 m ρ c (Proc.devRef .tc main_arg6) = (m ((c.tc : Thread nD τ).loc main_arg6)) :=
  ((((entry2_arg6 m ρ c).trans (exit1_arg6 m ρ c)).trans (entry1_arg6 m ρ c)).trans (exit0_arg6 m ρ c)).trans (entry0_arg6 m ρ c)
theorem arg8_at7 (c : Dev nD) : W7 m ρ c (Proc.devRef .tc main_arg8) = (m ((c.tc : Thread nD τ).loc main_arg8)) :=
  ((((entry2_arg8 m ρ c).trans (exit1_arg8 m ρ c)).trans (entry1_arg8 m ρ c)).trans (exit0_arg8 m ρ c)).trans (entry0_arg8 m ρ c)

end Boundaries

/-! ## The result on the extended reals -/

variable (m : (ℓ : Loc nD τ sig) → Buf (Elt Ideal) ℓ) (ρ : Dev nD → PrngReg)

/-- The first region's output array: x · W₁. -/
theorem xw1 (c : Dev nD) :
    W4 m ρ c (Proc.devRef .tc main_v30) = ExactProduct.mm (M := 50000) (K := 128) (N := 128) (m ((c.tc : Thread nD τ).loc main_arg0)) (m ((c.tc : Thread nD τ).loc main_arg2)) := by
  rw [exit0_xw, Region0.final (V3 m ρ) c]
  show ExactProduct.mm (M := 50000) (K := 128) (N := 128) (W3 m ρ c (Proc.devRef .tc main_arg0)) (W3 m ρ c (Proc.devRef .tc main_arg2)) = _
  rw [entry0_arg0, entry0_arg2]

/-- The second region's output array: max(agg(x · W₁) + b₁, 0) · W₂. -/
theorem xw2 (c : Dev nD) :
    W6 m ρ c (Proc.devRef .tc main_v46)
      = Cert.Gcn.layer (M := 50000) (K := 128) (N := 64)
          (Chain.agg128 (Chain.rowOf (m ((c.tc : Thread nD τ).loc main_arg1))) (Chain.colOf (m ((c.tc : Thread nD τ).loc main_arg1)))
            (Chain.normOf (Chain.rowOf (m ((c.tc : Thread nD τ).loc main_arg1))) (Chain.colOf (m ((c.tc : Thread nD τ).loc main_arg1))))
            (ExactProduct.mm (M := 50000) (K := 128) (N := 128) (m ((c.tc : Thread nD τ).loc main_arg0)) (m ((c.tc : Thread nD τ).loc main_arg2))))
          (shapeCast S1x128 (m ((c.tc : Thread nD τ).loc main_arg3)) Facts₀.shapeCasts_S128_S1x128) (m ((c.tc : Thread nD τ).loc main_arg4)) := by
  rw [exit1_xw, Region1.final (V5 m ρ) c]
  show Cert.Gcn.layer (M := 50000) (K := 128) (N := 64) (W5 m ρ c (Proc.devRef .tc main_v44)) (W5 m ρ c (Proc.devRef .tc main_v45)) (W5 m ρ c (Proc.devRef .tc main_arg4)) = _
  rw [entry1_agg, entry1_bias, arg4_at5, row_at4, col_at4, norm_at4, arg3_at4, xw1]

/-- The result array: the decoder of the second aggregation. -/
theorem last_value (c : Dev nD) :
    W8 m ρ c (Proc.devRef .tc main_v64)
      = Cert.Gcn.decoder (M := 50000) (K := 64) (H := 128) (N := 128)
          (Chain.agg64 (Chain.rowOf (m ((c.tc : Thread nD τ).loc main_arg1))) (Chain.colOf (m ((c.tc : Thread nD τ).loc main_arg1)))
            (Chain.normOf (Chain.rowOf (m ((c.tc : Thread nD τ).loc main_arg1))) (Chain.colOf (m ((c.tc : Thread nD τ).loc main_arg1))))
            (Cert.Gcn.layer (M := 50000) (K := 128) (N := 64)
              (Chain.agg128 (Chain.rowOf (m ((c.tc : Thread nD τ).loc main_arg1))) (Chain.colOf (m ((c.tc : Thread nD τ).loc main_arg1)))
                (Chain.normOf (Chain.rowOf (m ((c.tc : Thread nD τ).loc main_arg1))) (Chain.colOf (m ((c.tc : Thread nD τ).loc main_arg1))))
                (ExactProduct.mm (M := 50000) (K := 128) (N := 128) (m ((c.tc : Thread nD τ).loc main_arg0)) (m ((c.tc : Thread nD τ).loc main_arg2))))
              (shapeCast S1x128 (m ((c.tc : Thread nD τ).loc main_arg3)) Facts₀.shapeCasts_S128_S1x128) (m ((c.tc : Thread nD τ).loc main_arg4))))
          (shapeCast S1x64 (m ((c.tc : Thread nD τ).loc main_arg5)) Facts₀.shapeCasts_S64_S1x64) (m ((c.tc : Thread nD τ).loc main_arg6))
          (shapeCast S1x128 (m ((c.tc : Thread nD τ).loc main_arg7)) Facts₀.shapeCasts_S128_S1x128) (m ((c.tc : Thread nD τ).loc main_arg8))
          (shapeCast S1x128 (m ((c.tc : Thread nD τ).loc main_arg9)) Facts₀.shapeCasts_S128_S1x128) := by
  rw [exit2_out, Region2.final (V7 m ρ) c]
  show Cert.Gcn.decoder (M := 50000) (K := 64) (H := 128) (N := 128) (W7 m ρ c (Proc.devRef .tc main_v60)) (W7 m ρ c (Proc.devRef .tc main_v61))
      (W7 m ρ c (Proc.devRef .tc main_arg6)) (W7 m ρ c (Proc.devRef .tc main_v62)) (W7 m ρ c (Proc.devRef .tc main_arg8)) (W7 m ρ c (Proc.devRef .tc main_v63)) = _
  rw [entry2_agg, entry2_b2, entry2_bd1, entry2_bd2, arg6_at7, arg8_at7, row_at6, col_at6, norm_at6, arg5_at6, arg7_at6,
    arg9_at6, xw2]

end Cert.KernelIdeal.LastValue

end
-- ==== Proof.RefChain.lean ====
/-
  The graph side of the reference program, as functions of the edge list: the sources and targets of the messages
  (the listed edges followed by one self-loop per node), the symmetric normalisation weights
  deg(source)^(-1/2) · deg(target)^(-1/2), the aggregation of a node table along the edges (gather the source's row,
  scale it by the message's weight, add it into the target's row), and the dense stages around the aggregations,
  written with the program's own host operations. The whole result is their composition.
-/
import proofs.«141084_j23390391894414_1_alg».proof.Proof.Gen.ReferenceIdeal

noncomputable section

namespace Cert.ReferenceIdeal.Chain

open Cert.ReferenceIdeal Idealize.ShloMosaic Idealize.ShloMosaic.TcCoe
open Cert.ReferenceIdeal.Facts₀ Cert.ReferenceIdeal.Facts

variable {F : FTy → Type} [FloatOps F]

/-- The source of every message: the first row of the edge list, then every node once (its self-loop). -/
def rowOf (e : (⟨S2x600000, .i32⟩ : BufTy).Contents (Elt F)) : (⟨S650000, .i32⟩ : BufTy).Contents (Elt F) :=
  (concatenate S650000 0 [⟨S600000, (shapeCast _ (extractStridedSlice S1x600000 ![0, 0] e slices_S2x600000_S1x600000_0_0) shapeCasts_S1x600000_S600000)⟩, ⟨S50000, (iotaInDim S50000 32 0)⟩] concatenates_S600000_S50000_S650000_d0)

/-- The target of every message: the second row of the edge list, then every node once. -/
def colOf (e : (⟨S2x600000, .i32⟩ : BufTy).Contents (Elt F)) : (⟨S650000, .i32⟩ : BufTy).Contents (Elt F) :=
  (concatenate S650000 0 [⟨S600000, (shapeCast _ (extractStridedSlice S1x600000 ![1, 0] e slices_S2x600000_S1x600000_1_0) shapeCasts_S1x600000_S600000)⟩, ⟨S50000, (iotaInDim S50000 32 0)⟩] concatenates_S600000_S50000_S650000_d0)

/-- The symmetric normalisation of every message: with deg the number of messages arriving at a node (counted by adding
    one per message at its target) and dis = deg^(-1/2) where deg > 0, else 0, the weight of a message is
    dis(source) · dis(target); a negative index counts from the end. -/
def normOf (row col : (⟨S650000, .i32⟩ : BufTy).Contents (Elt F)) : (⟨S650000, .f32⟩ : BufTy).Contents (Elt F) :=
  (mulf (Host.gather gather_S50000_S650000x1_S650000_n_0_n_n_0_1_1 (select (cmpf .ogt (Host.scatterAdd scatter_S50000_S650000x1_S650000_n_0_0_1 (broadcastInDim S50000 ![] bcast_S_S50000 (constant (F := F) S_ .f32 0x00000000#32)) (broadcastInDim S650000x1 ![0] bcast_S650000_S650000x1_0 col) (broadcastInDim S650000 ![] bcast_S_S650000 (constant (F := F) S_ .f32 0x3F800000#32))) (broadcastInDim S50000 ![] bcast_S_S50000 (constant (F := F) S_ .f32 0x00000000#32))) (Host.rsqrt (Host.scatterAdd scatter_S50000_S650000x1_S650000_n_0_0_1 (broadcastInDim S50000 ![] bcast_S_S50000 (constant (F := F) S_ .f32 0x00000000#32)) (broadcastInDim S650000x1 ![0] bcast_S650000_S650000x1_0 col) (broadcastInDim S650000 ![] bcast_S_S650000 (constant (F := F) S_ .f32 0x3F800000#32)))) (broadcastInDim S50000 ![] bcast_S_S50000 (id (constant (F := F) S_ .f32 0x00000000#32)))) (broadcastInDim S650000x1 ![0] bcast_S650000_S650000x1_0 (select (cmpi .slt row (broadcastInDim S650000 ![] bcast_S_S650000 (constantI S_ 32 0#32))) (addi row (broadcastInDim S650000 ![] bcast_S_S650000 (constantI S_ 32 50000#32))) row))) (Host.gather gather_S50000_S650000x1_S650000_n_0_n_n_0_1_1 (select (cmpf .ogt (Host.scatterAdd scatter_S50000_S650000x1_S650000_n_0_0_1 (broadcastInDim S50000 ![] bcast_S_S50000 (constant (F := F) S_ .f32 0x00000000#32)) (broadcastInDim S650000x1 ![0] bcast_S650000_S650000x1_0 col) (broadcastInDim S650000 ![] bcast_S_S650000 (constant (F := F) S_ .f32 0x3F800000#32))) (broadcastInDim S50000 ![] bcast_S_S50000 (constant (F := F) S_ .f32 0x00000000#32))) (Host.rsqrt (Host.scatterAdd scatter_S50000_S650000x1_S650000_n_0_0_1 (broadcastInDim S50000 ![] bcast_S_S50000 (constant (F := F) S_ .f32 0x00000000#32)) (broadcastInDim S650000x1 ![0] bcast_S650000_S650000x1_0 col) (broadcastInDim S650000 ![] bcast_S_S650000 (constant (F := F) S_ .f32 0x3F800000#32)))) (broadcastInDim S50000 ![] bcast_S_S50000 (id (constant (F := F) S_ .f32 0x00000000#32)))) (broadcastInDim S650000x1 ![0] bcast_S650000_S650000x1_0 (select (cmpi .slt col (broadcastInDim S650000 ![] bcast_S_S650000 (constantI S_ 32 0#32))) (addi col (broadcastInDim S650000 ![] bcast_S_S650000 (constantI S_ 32 50000#32))) col))))

/-- Aggregate a [50000, 128] node table along the edges: row t of the result is Σ over messages into t of
    weight · (the source's row). -/
def agg128 (row col : (⟨S650000, .i32⟩ : BufTy).Contents (Elt F)) (norm : (⟨S650000, .f32⟩ : BufTy).Contents (Elt F)) (xw : (⟨S50000x128, .f32⟩ : BufTy).Contents (Elt F)) : (⟨S50000x128, .f32⟩ : BufTy).Contents (Elt F) :=
  (Host.scatterAdd scatter_S50000x128_S650000x1_S650000x128_1_0_0_1 (broadcastInDim S50000x128 ![] bcast_S_S50000x128 (constant (F := F) S_ .f32 0x00000000#32)) (broadcastInDim S650000x1 ![0] bcast_S650000_S650000x1_0 col) (mulf (Host.gather gather_S50000x128_S650000x1_S650000x128_1_0_n_n_0_1_1128 xw (broadcastInDim S650000x1 ![0] bcast_S650000_S650000x1_0 (select (cmpi .slt row (broadcastInDim S650000 ![] bcast_S_S650000 (constantI S_ 32 0#32))) (addi row (broadcastInDim S650000 ![] bcast_S_S650000 (constantI S_ 32 50000#32))) row))) (broadcastInDim S650000x128 ![0, 1] bcast_S650000x1_S650000x128_0_1 (broadcastInDim S650000x1 ![0] bcast_S650000_S650000x1_0 norm))))

/-- The same aggregation of a [50000, 64] node table. -/
def agg64 (row col : (⟨S650000, .i32⟩ : BufTy).Contents (Elt F)) (norm : (⟨S650000, .f32⟩ : BufTy).Contents (Elt F)) (xw : (⟨S50000x64, .f32⟩ : BufTy).Contents (Elt F)) : (⟨S50000x64, .f32⟩ : BufTy).Contents (Elt F) :=
  (Host.scatterAdd scatter_S50000x64_S650000x1_S650000x64_1_0_0_1 (broadcastInDim S50000x64 ![] bcast_S_S50000x64 (constant (F := F) S_ .f32 0x00000000#32)) (broadcastInDim S650000x1 ![0] bcast_S650000_S650000x1_0 col) (mulf (Host.gather gather_S50000x64_S650000x1_S650000x64_1_0_n_n_0_1_164 xw (broadcastInDim S650000x1 ![0] bcast_S650000_S650000x1_0 (select (cmpi .slt row (broadcastInDim S650000 ![] bcast_S_S650000 (constantI S_ 32 0#32))) (addi row (broadcastInDim S650000 ![] bcast_S_S650000 (constantI S_ 32 50000#32))) row))) (broadcastInDim S650000x64 ![0, 1] bcast_S650000x1_S650000x64_0_1 (broadcastInDim S650000x1 ![0] bcast_S650000_S650000x1_0 norm))))

/-- The second layer's projection as the host spells it: max(a + bias, 0) · W₂, the bias vector copied into every row. -/
def hostLayer (a : (⟨S50000x128, .f32⟩ : BufTy).Contents (Elt F)) (b1 : (⟨S128, .f32⟩ : BufTy).Contents (Elt F)) (W2 : (⟨S128x64, .f32⟩ : BufTy).Contents (Elt F)) : (⟨S50000x64, .f32⟩ : BufTy).Contents (Elt F) :=
  (Host.dotGeneral dot_S50000x128_S128x64_S50000x64_1_0_0_1_n_n none (maximumf (addf a (broadcastInDim S50000x128 ![0, 1] bcast_S1x128_S50000x128_0_1 (broadcastInDim S1x128 ![1] bcast_S128_S1x128_1 b1))) (broadcastInDim S50000x128 ![] bcast_S_S50000x128 (constant (F := F) S_ .f32 0x00000000#32))) W2)

/-- The decoder as the host spells it: max(max(a + b₂, 0) · Wd₁ + bd₁, 0) · Wd₂ + bd₂. -/
def hostDecoder (a : (⟨S50000x64, .f32⟩ : BufTy).Contents (Elt F)) (b2 : (⟨S64, .f32⟩ : BufTy).Contents (Elt F)) (Wd1 : (⟨S64x128, .f32⟩ : BufTy).Contents (Elt F)) (bd1 : (⟨S128, .f32⟩ : BufTy).Contents (Elt F))
    (Wd2 : (⟨S128x128, .f32⟩ : BufTy).Contents (Elt F)) (bd2 : (⟨S128, .f32⟩ : BufTy).Contents (Elt F)) : (⟨S50000x128, .f32⟩ : BufTy).Contents (Elt F) :=
  addf (Host.dotGeneral dot_S50000x128_S128x128_S50000x128_1_0_0_1_n_n none (maximumf (addf (Host.dotGeneral dot_S50000x64_S64x128_S50000x128_1_0_0_1_n_n none (maximumf (addf a (broadcastInDim S50000x64 ![0, 1] bcast_S1x64_S50000x64_0_1 (broadcastInDim S1x64 ![1] bcast_S64_S1x64_1 b2))) (broadcastInDim S50000x64 ![] bcast_S_S50000x64 (constant (F := F) S_ .f32 0x00000000#32))) Wd1) (broadcastInDim S50000x128 ![0, 1] bcast_S1x128_S50000x128_0_1 (broadcastInDim S1x128 ![1] bcast_S128_S1x128_1 bd1))) (broadcastInDim S50000x128 ![] bcast_S_S50000x128 (constant (F := F) S_ .f32 0x00000000#32))) Wd2) (broadcastInDim S50000x128 ![0, 1] bcast_S1x128_S50000x128_0_1 (broadcastInDim S1x128 ![1] bcast_S128_S1x128_1 bd2))

/-- The reference's result as the composition of its stages. -/
def total (x : (⟨S50000x128, .f32⟩ : BufTy).Contents (Elt F)) (e : (⟨S2x600000, .i32⟩ : BufTy).Contents (Elt F)) (W1 : (⟨S128x128, .f32⟩ : BufTy).Contents (Elt F)) (b1 : (⟨S128, .f32⟩ : BufTy).Contents (Elt F))
    (W2 : (⟨S128x64, .f32⟩ : BufTy).Contents (Elt F)) (b2 : (⟨S64, .f32⟩ : BufTy).Contents (Elt F)) (Wd1 : (⟨S64x128, .f32⟩ : BufTy).Contents (Elt F)) (bd1 : (⟨S128, .f32⟩ : BufTy).Contents (Elt F))
    (Wd2 : (⟨S128x128, .f32⟩ : BufTy).Contents (Elt F)) (bd2 : (⟨S128, .f32⟩ : BufTy).Contents (Elt F)) : (⟨S50000x128, .f32⟩ : BufTy).Contents (Elt F) :=
  hostDecoder (agg64 (rowOf e) (colOf e) (normOf (rowOf e) (colOf e))
      (hostLayer (agg128 (rowOf e) (colOf e) (normOf (rowOf e) (colOf e))
        (Host.dotGeneral dot_S50000x128_S128x128_S50000x128_1_0_0_1_n_n none x W1)) b1 W2)) b2 Wd1 bd1 Wd2 bd2

end Cert.ReferenceIdeal.Chain

end
-- ==== Proof.RefValue.lean ====
/-
  The reference program's result as a function of its arguments.

  Its run ends with the result buffer at one composed term of the arguments. That term is the composition of the
  stages: x · W₁, aggregated along the edges, through max(· + b₁, 0) · W₂, aggregated again, through the decoder
  max(max(· + b₂, 0) · Wd₁ + bd₁, 0) · Wd₂ + bd₂. On the extended reals each dense stage is the whole-array function of
  the specification: a host contraction of axis 1 against axis 0 is the exact matrix product, a bias vector copied into
  every row and added is the bias row of the specification, and the rectifier's floor is the same word on both sides.
  The aggregations are left as they are: the kernel's program applies the same ones.
-/
import proofs.«141084_j23390391894414_1_alg».proof.Proof.RunPatched
import proofs.«141084_j23390391894414_1_alg».proof.Proof.RefChain
import proofs.«141084_j23390391894414_1_alg».proof.Proof.GcnSpec

set_option maxRecDepth 16384

noncomputable section

namespace Cert.ReferenceIdeal.RefValue

open Cert.ReferenceIdeal Idealize.ShloMosaic Idealize.ShloMosaic.TcCoe Idealize.ShloMosaic.ValueIdx Idealize.SL.Sem
open Cert.ReferenceIdeal.Facts₀ Cert.ReferenceIdeal.Facts

/-- The run's result term is the composition of the stages (for any float values). -/
theorem res_eq_total {F : FTy → Type} [FloatOps F] (m : (ℓ : Loc nD τ sig) → Buf (Elt F) ℓ) (c : Dev nD) :
    ValueP.res_main_v104 m c = Chain.total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold ValueP.res_main_v104 Chain.total Chain.hostDecoder Chain.agg64 Chain.hostLayer Chain.agg128 Chain.normOf Chain.rowOf Chain.colOf
  rfl

/-- A scalar copied to every entry of an array reads that scalar. -/
theorem scalar_everywhere {t : Shape} (h : (⟨0, ![]⟩ : Shape).BroadcastsInDim t ![]) (x : (⟨0, ![]⟩ : Shape).Idx → EReal)
    (j : t.Idx) : broadcastInDim t ![] h x j = x (fun a => a.elim0) :=
  broadcastInDim_apply ![] h x j (fun a => a.elim0) (fun a => a.elim0)

/-- The host's rectifier of a matrix plus a bias vector copied into every row is the specification's, with the vector
    laid out as one row. -/
theorem hostRelu_eq {M K : ℕ} (a : (⟨2, ![M, K]⟩ : Shape).Idx → EReal) (bp : (⟨1, ![K]⟩ : Shape).Idx → EReal)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (hc : (⟨1, ![K]⟩ : Shape).ShapeCasts ⟨2, ![1, K]⟩) :
    maximumf (F := Ideal) (φ := .f32)
        (addf (F := Ideal) (φ := .f32) a (broadcastInDim ⟨2, ![M, K]⟩ ![0, 1] h2 (broadcastInDim ⟨2, ![1, K]⟩ ![1] h1 bp)))
        (broadcastInDim ⟨2, ![M, K]⟩ ![] h0 (constant (F := Ideal) ⟨0, ![]⟩ .f32 0x00000000#32))
      = Cert.Gcn.reluRow a (shapeCast ⟨2, ![1, K]⟩ bp hc) := by
  funext i
  obtain ⟨r, k, rfl⟩ : ∃ (r : Fin M) (k : Fin K), i = ix2 r k := ⟨i 0, i 1, eq_ix2 i⟩
  show max (a (ix2 r k) + broadcastInDim ⟨2, ![M, K]⟩ ![0, 1] h2 (broadcastInDim ⟨2, ![1, K]⟩ ![1] h1 bp) (ix2 r k))
      (broadcastInDim ⟨2, ![M, K]⟩ ![] h0 (constant (F := Ideal) ⟨0, ![]⟩ .f32 0x00000000#32) (ix2 r k))
    = max (a (ix2 r k) + shapeCast ⟨2, ![1, K]⟩ bp hc (ix2 (0 : Fin 1) k)) Cert.Gcn.floor0
  rw [ExactProduct.rowOfVector_apply bp h1 h2 r k, shapeCast_a_1a_apply bp hc (0 : Fin 1) k, scalar_everywhere]
  rfl

/-- The second layer's projection, as the host spells it, is the specification's. -/
theorem hostLayer_eq (a : (⟨S50000x128, .f32⟩ : BufTy).Contents (Elt Ideal)) (b1 : (⟨S128, .f32⟩ : BufTy).Contents (Elt Ideal)) (W2 : (⟨S128x64, .f32⟩ : BufTy).Contents (Elt Ideal))
    (hc : S128.ShapeCasts S1x128) :
    Chain.hostLayer (F := Ideal) a b1 W2
      = Cert.Gcn.layer (M := 50000) (K := 128) (N := 64) a (shapeCast S1x128 b1 hc) W2 := by
  unfold Chain.hostLayer Cert.Gcn.layer
  rw [hostRelu_eq a b1 bcast_S128_S1x128_1 bcast_S1x128_S50000x128_0_1 bcast_S_S50000x128 hc]
  exact ExactProduct.hostDot_eq_mm dot_S50000x128_S128x64_S50000x64_1_0_0_1_n_n rfl none _ W2

/-- The decoder, as the host spells it, is the specification's. -/
theorem hostDecoder_eq (a : (⟨S50000x64, .f32⟩ : BufTy).Contents (Elt Ideal)) (b2 : (⟨S64, .f32⟩ : BufTy).Contents (Elt Ideal)) (Wd1 : (⟨S64x128, .f32⟩ : BufTy).Contents (Elt Ideal))
    (bd1 : (⟨S128, .f32⟩ : BufTy).Contents (Elt Ideal)) (Wd2 : (⟨S128x128, .f32⟩ : BufTy).Contents (Elt Ideal)) (bd2 : (⟨S128, .f32⟩ : BufTy).Contents (Elt Ideal))
    (hc64 : S64.ShapeCasts S1x64) (hc128 : S128.ShapeCasts S1x128) :
    Chain.hostDecoder (F := Ideal) a b2 Wd1 bd1 Wd2 bd2
      = Cert.Gcn.decoder (M := 50000) (K := 64) (H := 128) (N := 128) a (shapeCast S1x64 b2 hc64) Wd1
          (shapeCast S1x128 bd1 hc128) Wd2 (shapeCast S1x128 bd2 hc128) := by
  unfold Chain.hostDecoder Cert.Gcn.decoder Cert.Gcn.layer
  rw [hostRelu_eq a b2 bcast_S64_S1x64_1 bcast_S1x64_S50000x64_0_1 bcast_S_S50000x64 hc64,
    ExactProduct.hostDot_eq_mm dot_S50000x64_S64x128_S50000x128_1_0_0_1_n_n rfl none _ Wd1,
    hostRelu_eq _ bd1 bcast_S128_S1x128_1 bcast_S1x128_S50000x128_0_1 bcast_S_S50000x128 hc128,
    ExactProduct.hostDot_eq_mm dot_S50000x128_S128x128_S50000x128_1_0_0_1_n_n rfl none _ Wd2]
  exact ExactProduct.addRow_eq_proj _ Wd2 bd2 bcast_S128_S1x128_1 bcast_S1x128_S50000x128_0_1 hc128

/-- The whole result on the extended reals: the specification's dense stages around the two aggregations. -/
theorem total_eq (x : (⟨S50000x128, .f32⟩ : BufTy).Contents (Elt Ideal)) (e : (⟨S2x600000, .i32⟩ : BufTy).Contents (Elt Ideal)) (W1 : (⟨S128x128, .f32⟩ : BufTy).Contents (Elt Ideal))
    (b1 : (⟨S128, .f32⟩ : BufTy).Contents (Elt Ideal)) (W2 : (⟨S128x64, .f32⟩ : BufTy).Contents (Elt Ideal)) (b2 : (⟨S64, .f32⟩ : BufTy).Contents (Elt Ideal)) (Wd1 : (⟨S64x128, .f32⟩ : BufTy).Contents (Elt Ideal))
    (bd1 : (⟨S128, .f32⟩ : BufTy).Contents (Elt Ideal)) (Wd2 : (⟨S128x128, .f32⟩ : BufTy).Contents (Elt Ideal)) (bd2 : (⟨S128, .f32⟩ : BufTy).Contents (Elt Ideal))
    (hc64 : S64.ShapeCasts S1x64) (hc128 : S128.ShapeCasts S1x128) :
    Chain.total (F := Ideal) x e W1 b1 W2 b2 Wd1 bd1 Wd2 bd2
      = Cert.Gcn.decoder (M := 50000) (K := 64) (H := 128) (N := 128)
          (Chain.agg64 (Chain.rowOf e) (Chain.colOf e) (Chain.normOf (Chain.rowOf e) (Chain.colOf e))
            (Cert.Gcn.layer (M := 50000) (K := 128) (N := 64)
              (Chain.agg128 (Chain.rowOf e) (Chain.colOf e) (Chain.normOf (Chain.rowOf e) (Chain.colOf e))
                (ExactProduct.mm (M := 50000) (K := 128) (N := 128) x W1))
              (shapeCast S1x128 b1 hc128) W2))
          (shapeCast S1x64 b2 hc64) Wd1 (shapeCast S1x128 bd1 hc128) Wd2 (shapeCast S1x128 bd2 hc128) := by
  unfold Chain.total
  rw [hostDecoder_eq _ b2 Wd1 bd1 Wd2 bd2 hc64 hc128, hostLayer_eq _ b1 W2 hc128,
    ExactProduct.hostDot_eq_mm dot_S50000x128_S128x128_S50000x128_1_0_0_1_n_n rfl none x W1]

end Cert.ReferenceIdeal.RefValue

end
-- ==== Proof.Bridge.lean ====
/-
  The two results are equal.

  The kernel's program and the reference apply the same graph operations to the edge list — the same sources, targets and
  normalisation weights, and the same gather–scale–scatter-add aggregation — except that the kernel's program gathers from a
  table stored in the narrow float format and widens the gathered rows; on the extended reals a change of float format is
  the identity, so the aggregations are the same functions. Around them both sides are the specification's dense
  stages. So from memories that agree on the arguments the two result arrays are equal, entry by entry.
-/
import proofs.«141084_j23390391894414_1_alg».proof.Proof.KernelValue
import proofs.«141084_j23390391894414_1_alg».proof.Proof.RefValue

set_option maxRecDepth 16384

noncomputable section

namespace Cert.Bridge

open Idealize.ShloMosaic Idealize.ShloMosaic.TcCoe Idealize.SL.Sem

/-- The sources of the messages are the same function of the edge list in both programs. -/
theorem rowOf_same (e : (⟨Cert.ReferenceIdeal.S2x600000, .i32⟩ : BufTy).Contents (Elt Ideal)) :
    Cert.ReferenceIdeal.Chain.rowOf (F := Ideal) e = Cert.KernelIdeal.Chain.rowOf (F := Ideal) e := rfl

/-- So are the targets. -/
theorem colOf_same (e : (⟨Cert.ReferenceIdeal.S2x600000, .i32⟩ : BufTy).Contents (Elt Ideal)) :
    Cert.ReferenceIdeal.Chain.colOf (F := Ideal) e = Cert.KernelIdeal.Chain.colOf (F := Ideal) e := rfl

/-- So are the normalisation weights. -/
theorem normOf_same (row col : (⟨Cert.ReferenceIdeal.S650000, .i32⟩ : BufTy).Contents (Elt Ideal)) :
    Cert.ReferenceIdeal.Chain.normOf (F := Ideal) row col = Cert.KernelIdeal.Chain.normOf (F := Ideal) row col := rfl

/-- The aggregation of a [50000, 128] table: widening the gathered rows changes nothing on the extended reals. -/
theorem agg128_same (row col : (⟨Cert.ReferenceIdeal.S650000, .i32⟩ : BufTy).Contents (Elt Ideal)) (norm : (⟨Cert.ReferenceIdeal.S650000, .f32⟩ : BufTy).Contents (Elt Ideal)) (xw : (⟨Cert.ReferenceIdeal.S50000x128, .f32⟩ : BufTy).Contents (Elt Ideal)) :
    Cert.ReferenceIdeal.Chain.agg128 (F := Ideal) row col norm xw = Cert.KernelIdeal.Chain.agg128 (F := Ideal) row col norm xw := rfl

/-- The aggregation of a [50000, 64] table, likewise. -/
theorem agg64_same (row col : (⟨Cert.ReferenceIdeal.S650000, .i32⟩ : BufTy).Contents (Elt Ideal)) (norm : (⟨Cert.ReferenceIdeal.S650000, .f32⟩ : BufTy).Contents (Elt Ideal)) (xw : (⟨Cert.ReferenceIdeal.S50000x64, .f32⟩ : BufTy).Contents (Elt Ideal)) :
    Cert.ReferenceIdeal.Chain.agg64 (F := Ideal) row col norm xw = Cert.KernelIdeal.Chain.agg64 (F := Ideal) row col norm xw := rfl

/-- From memories agreeing on the ten arguments, the reference's result term is the kernel program's result array. -/
theorem result_same (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.ValueP.res_main_v104 (F := Ideal) m' c = Cert.KernelIdeal.Gen.W8 m ρ c (Proc.devRef .tc Cert.KernelIdeal.main_v64) := by
  rw [Cert.ReferenceIdeal.RefValue.res_eq_total m' c, h0, h1, h2, h3, h4, h5, h6, h7, h8, h9,
    Cert.ReferenceIdeal.RefValue.total_eq _ _ _ _ _ _ _ _ _ _ Cert.KernelIdeal.Facts₀.shapeCasts_S64_S1x64 Cert.KernelIdeal.Facts₀.shapeCasts_S128_S1x128,
    rowOf_same, colOf_same, normOf_same, agg128_same, agg64_same]
  exact (Cert.KernelIdeal.LastValue.last_value m ρ c).symm

end Cert.Bridge

end
-- ==== Proof.lean ====
/-
  A two-layer graph convolution with a two-layer decoder over 50000 nodes and 600000 edges, computed by three kernels
  (x · W₁; max(a₁ + b₁, 0) · W₂; max(max(a₂ + b₂, 0) · Wd₁ + bd₁, 0) · Wd₂ + bd₂, each over ten blocks of 5000 rows) with the
  two edge aggregations a₁ = agg(x · W₁), a₂ = agg(·) between them on the host, against the same network written with
  plain array operations.

  On the extended reals a change of float format is the identity and a matrix product is Σ_k x(r, k) · w(k, c) whatever
  the tiling of its rows, so each kernel's output array is the whole-array dense stage of the specification, the host's
  contractions and bias additions are the same stages, and the aggregations — gather a row per message, scale it by
  deg(source)^(-1/2) · deg(target)^(-1/2), add it into the target's row — are literally the same operations of the same
  edge list on both sides. No law beyond reindexing a finite sum is used, so the precondition is never opened.

  The three programs run and leave their arguments unchanged; the idealization rewrote nothing; and from memories that
  agree on the arguments the two idealized programs end with equal result arrays.
-/
import proofs.«141084_j23390391894414_1_alg».proof.Defs
import proofs.«141084_j23390391894414_1_alg».proof.Proof.Gen.Kernel
import proofs.«141084_j23390391894414_1_alg».proof.Proof.Gen.Kernel.Skeleton
import proofs.«141084_j23390391894414_1_alg».proof.Proof.Gen.Kernel.Launch
import proofs.«141084_j23390391894414_1_alg».proof.Proof.Gen.Kernel.Points
import proofs.«141084_j23390391894414_1_alg».proof.Proof.Gen.Kernel.Frame
import proofs.«141084_j23390391894414_1_alg».proof.Proof.Gen.KernelIdeal
import proofs.«141084_j23390391894414_1_alg».proof.Proof.Gen.KernelIdeal.Skeleton
import proofs.«141084_j23390391894414_1_alg».proof.Proof.Gen.KernelIdeal.Launch
import proofs.«141084_j23390391894414_1_alg».proof.Proof.Gen.KernelIdeal.Points
import proofs.«141084_j23390391894414_1_alg».proof.Proof.Gen.KernelIdeal.Frame
import proofs.«141084_j23390391894414_1_alg».proof.Proof.Gen.ReferenceIdeal
import proofs.«141084_j23390391894414_1_alg».proof.Proof.Gen.Pre_finite_inputs
import proofs.«141084_j23390391894414_1_alg».proof.Proof.KernelRun
import proofs.«141084_j23390391894414_1_alg».proof.Proof.RunPatched
import proofs.«141084_j23390391894414_1_alg».proof.Proof.Bridge
import Idealize.ShloMosaic.Adequacy
import Idealize.ShloMosaic.Init

noncomputable section

namespace Cert.Proof

open Idealize.ShloMosaic Idealize.SL.Sem Cert.Kernel

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs run, and the result arrays are equal: the kernel
    program's is the last region's written-back output, the reference's its composed term, and the two are the same
    function of the arguments. -/
theorem algebraic : Cert.algebraic_KernelIdeal_ReferenceIdeal := by
  intro m ρ m' ρ' _ hagree
  refine ⟨fun c => Cert.KernelIdeal.Gen.W8 m ρ c (Proc.devRef .tc Cert.KernelIdeal.main_v64),
    Cert.KernelIdeal.LastRun.run_last (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  exact Cert.Bridge.result_same m ρ m' c h0 h1 h2 h3 h4 h5 h6 h7 h8 h9

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
